-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_arg7 : FVec F S64x40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  main_v33

def fn {F : FTy → Type} [FloatOps F] (main_arg0 : FVec F S100000x64 .f32) (main_arg1 : IVec S2x1250000 32) (main_arg2 : FVec F S64x64 .f32) (main_arg3 : FVec F S64 .f32) (main_arg4 : FVec F S64x64 .f32) (main_arg5 : FVec F S64x40 .f32) (main_arg6 : FVec F S40 .f32) (main_arg7 : FVec F S64x40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S100000 : Shape := ⟨1, ![100000]⟩
abbrev S1250000x1 : Shape := ⟨2, ![1250000, 1]⟩
abbrev S1250000x64 : Shape := ⟨2, ![1250000, 64]⟩
abbrev S1x64 : Shape := ⟨2, ![1, 64]⟩
abbrev S100000x1 : Shape := ⟨2, ![100000, 1]⟩
abbrev S5000x64 : Shape := ⟨2, ![5000, 64]⟩
abbrev S5000x1 : Shape := ⟨2, ![5000, 1]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩

abbrev nBuf : Space → Nat
  | .hbm => 56
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .f32⟩
  | .hbm, ⟨13, _⟩ => ⟨S1250000, .f32⟩
  | .hbm, ⟨14, _⟩ => ⟨S_, .f32⟩
  | .hbm, ⟨15, _⟩ => ⟨S100000, .f32⟩
  | .hbm, ⟨16, _⟩ => ⟨S1250000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000x64, .f32⟩
  | .hbm, ⟨33, _⟩ => ⟨S_, .f32⟩
  | .hbm, ⟨34, _⟩ => ⟨S100000x64, .f32⟩
  | .hbm, ⟨35, _⟩ => ⟨S1250000x1, .i32⟩
  | .hbm, ⟨36, _⟩ => ⟨S100000x64, .f32⟩
  | .hbm, ⟨37, _⟩ => ⟨S1x64, .f32⟩
  | .hbm, ⟨38, _⟩ => ⟨S100000x1, .f32⟩
  | .hbm, ⟨39, _⟩ => ⟨S100000x64, .f32⟩
  | .hbm, ⟨40, _⟩ => ⟨S_, .i32⟩
  | .hbm, ⟨41, _⟩ => ⟨S1250000, .i32⟩
  | .hbm, ⟨42, _⟩ => ⟨S1250000, .i1⟩
  | .hbm, ⟨43, _⟩ => ⟨S_, .i32⟩
  | .hbm, ⟨44, _⟩ => ⟨S1250000, .i32⟩
  | .hbm, ⟨45, _⟩ => ⟨S1250000, .i32⟩
  | .hbm, ⟨46, _⟩ => ⟨S1250000, .i32⟩
  | .hbm, ⟨47, _⟩ => ⟨S1250000x1, .i32⟩
  | .hbm, ⟨48, _⟩ => ⟨S1250000x64, .f32⟩
  | .hbm, ⟨49, _⟩ => ⟨S_, .f32⟩
  | .hbm, ⟨50, _⟩ => ⟨S100000x64, .f32⟩
  | .hbm, ⟨51, _⟩ => ⟨S1250000x1, .i32⟩
  | .hbm, ⟨52, _⟩ => ⟨S100000x64, .f32⟩
  | .hbm, ⟨53, _⟩ => ⟨S1x40, .f32⟩
  | .hbm, ⟨54, _⟩ => ⟨S100000x1, .f32⟩
  | .hbm, ⟨55, _⟩ => ⟨S100000x40, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x40, .f32⟩
  | .local _ .vmem, ⟨18, _⟩ => ⟨S1x40, .f32⟩
  | .local _ .vmem, ⟨19, _⟩ => ⟨S64x40, .f32⟩
  | .local _ .vmem, ⟨20, _⟩ => ⟨S5000x40, .f32⟩
  | .local _ .vmem, ⟨21, _⟩ => ⟨S5000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S100000 : S_.BroadcastsInDim S100000 (![] : Fin 0 → Fin S100000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  shapeCasts_S64_S1x64 : S64.ShapeCasts S1x64
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1250000x1_S1250000_n_0_0_1_wf : ScatterDims.WF S100000 S1250000x1 S1250000 [] [0] [0] 1
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x40.size a ≤ S64x40.size a
  hwx1_3 : ∀ i : grid1.Coords, EltTy.bits .f32 = 32 ∨ (Rect.block (s := S64x40) S64x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x40.size a ≤ S1x40.size a
  hwx1_4 : ∀ i : grid1.Coords, EltTy.bits .f32 = 32 ∨ (Rect.block (s := S1x40) S1x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x40.size a ≤ S64x40.size a
  hwx1_5 : ∀ i : grid1.Coords, EltTy.bits .f32 = 32 ∨ (Rect.block (s := S64x40) S64x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S100000x40.size a
  hwx1_6 : ∀ i : grid1.Coords, EltTy.bits .f32 = 32 ∨ (Rect.block (s := S100000x40) S5000x40.size (cc1_transform_6 i) (hinb1_6 i)).WholeWords (EltTy.packing .f32)

variable [Facts₀]

def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v21) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1250000 : Shape := ⟨2, ![1, 1250000]⟩
abbrev S1250000 : Shape := ⟨1, ![1250000]⟩
abbrev S_ : Shape := ⟨0, ![]⟩
abbrev S1250000x1 : Shape := ⟨2, ![1250000, 1]⟩
abbrev S1250000x64 : Shape := ⟨2, ![1250000, 64]⟩
abbrev S100000 : Shape := ⟨1, ![100000]⟩
abbrev S100000x1 : Shape := ⟨2, ![100000, 1]⟩
abbrev S1x64 : Shape := ⟨2, ![1, 64]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1250000, .i32⟩
  | .hbm, ⟨9, _⟩ => ⟨S1250000, .i32⟩
  | .hbm, ⟨10, _⟩ => ⟨S1x1250000, .i32⟩
  | .hbm, ⟨11, _⟩ => ⟨S1250000, .i32⟩
  | .hbm, ⟨12, _⟩ => ⟨S_, .i32⟩
  | .hbm, ⟨13, _⟩ => ⟨S1250000, .i32⟩
  | .hbm, ⟨14, _⟩ => ⟨S1250000, .i1⟩
  | .hbm, ⟨15, _⟩ => ⟨S_, .i32⟩
  | .hbm, ⟨16, _⟩ => ⟨S1250000, .i32⟩
  | .hbm, ⟨17, _⟩ => ⟨S1250000, .i32⟩
  | .hbm, ⟨18, _⟩ => ⟨S1250000, .i32⟩
  | .hbm, ⟨19, _⟩ => ⟨S1250000x1, .i32⟩
  | .hbm, ⟨20, _⟩ => ⟨S1250000x64, .f32⟩
  | .hbm, ⟨21, _⟩ => ⟨S_, .f32⟩
  | .hbm, ⟨22, _⟩ => ⟨S100000x64, .f32⟩
  | .hbm, ⟨23, _⟩ => ⟨S1250000x1, .i32⟩
  | .hbm, ⟨24, _⟩ => ⟨S100000x64, .f32⟩
  | .hbm, ⟨25, _⟩ => ⟨S_, .f32⟩
  | .hbm, ⟨26, _⟩ => ⟨S1250000, .f32⟩
  | .hbm, ⟨27, _⟩ => ⟨S_, .f32⟩
  | .hbm, ⟨28, _⟩ => ⟨S100000, .f32⟩
  | .hbm, ⟨29, _⟩ => ⟨S1250000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1250000, .i32⟩
  | .hbm, ⟨48, _⟩ => ⟨S1250000, .i1⟩
  | .hbm, ⟨49, _⟩ => ⟨S_, .i32⟩
  | .hbm, ⟨50, _⟩ => ⟨S1250000, .i32⟩
  | .hbm, ⟨51, _⟩ => ⟨S1250000, .i32⟩
  | .hbm, ⟨52, _⟩ => ⟨S1250000, .i32⟩
  | .hbm, ⟨53, _⟩ => ⟨S1250000x1, .i32⟩
  | .hbm, ⟨54, _⟩ => ⟨S1250000x64, .f32⟩
  | .hbm, ⟨55, _⟩ => ⟨S_, .f32⟩
  | .hbm, ⟨56, _⟩ => ⟨S100000x64, .f32⟩
  | .hbm, ⟨57, _⟩ => ⟨S1250000x1, .i32⟩
  | .hbm, ⟨58, _⟩ => ⟨S100000x64, .f32⟩
  | .hbm, ⟨59, _⟩ => ⟨S_, .f32⟩
  | .hbm, ⟨60, _⟩ => ⟨S1250000, .f32⟩
  | .hbm, ⟨61, _⟩ => ⟨S_, .f32⟩
  | .hbm, ⟨62, _⟩ => ⟨S100000, .f32⟩
  | .hbm, ⟨63, _⟩ => ⟨S1250000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  scatter_S100000_S1250000x1_S1250000_n_0_0_1_wf : ScatterDims.WF S100000 S1250000x1 S1250000 [] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def scatter_S100000_S1250000x1_S1250000_n_0_0_1 : ScatterDims S100000 S1250000x1 S1250000 where
  updateWindowDims := []
  insertedWindowDims := [0]
  scatterDimsToOperandDims := [0]
  indexVectorDim := 1
  wf := scatter_S100000_S1250000x1_S1250000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KernelRun.lean ====
/-
  The idealized kernel's whole run with its RESULT named.  The program is four segments: host operations, the
  first dense layer's grid, host operations, the second dense layer's grid.  The buffer contents at each
  boundary are a fold from the launch memory (`W0 … W4`); at the end every unscoped buffer holds `W4`, so
  the result buffer holds `W4` read at it, and the eight arguments hold what they were launched with.
-/
import proofs.«120910_j59373627900056_2_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's
    contents read at it, and the arguments end as launched. -/
theorem run_result : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Whole

end
-- ==== Proof.LibColumns.lean ====
/-
  Column vectors read at an index: a vector of `a` entries viewed as an `a × 1` column, a column
  broadcast along its rows to an `a × b` matrix, a `1 × 1` matrix broadcast to every entry of an
  `a × b` matrix; and a reduction along the rows of an `a × b` matrix read as a sum, or as a running
  maximum, over the row's entries.
-/
import Idealize.ShloMosaic.Lib.Pipeline.Value
import Idealize.ShloMosaic.Lib.ValueIdx
import Idealize.ShloMosaic.PureOps.Ideal.Laws

noncomputable section

namespace Cert.Columns

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A `[1, 1]` matrix broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (q : Fin b) : broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The index of an `[a, b]` matrix over row `p` at position `k` of the reduced axis is `(p, k)`. -/
theorem lift_row {a b : ℕ} (h : Shape.Reduces ⟨2, ![a, b]⟩ [1] ⟨1, ![a]⟩) (p : Fin a) (k : Fin b) :
    h.lift (ix1 p) k = ix2 p k :=
  funext fun ax => Fin.ext (by match ax with | ⟨0, _⟩ => rfl | ⟨1, _⟩ => rfl)

end Cert.Columns

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.Payload0.lean ====
/-
  The first dense layer on one block of 5000 rows.  Entry (p, q) of what the body stores is
      max ( (Σ_k (A(p,k) · r(p)) · Wl(k,q)  +  b(q))  +  Σ_k X(p,k) · Wr(k,q) ,  0 )
  where A is the block of summed neighbour features, r the column of reciprocal degrees, X the block of
  the nodes' own features, Wl and Wr the two weight matrices and b the bias row.  The narrowing of the
  matrix unit's operands to bf16 is the identity on exact values, and a product accumulated into zero is
  the plain sum over the contracted index.
-/
import proofs.«120910_j59373627900056_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«120910_j59373627900056_2_alg».proof.Proof.LibColumns
import proofs.«120910_j59373627900056_2_alg».proof.Proof.LibMatmul

noncomputable section

namespace Cert.KernelIdeal.Whole

open Idealize.ShloMosaic Idealize.ShloMosaic.ValueIdx
open Cert.KernelIdeal Cert.KernelIdeal.Gen

/-! The [5000,64] x [64,64] product's dimension numbers: rows of the left operand come from the result's
    rows, its columns from the contraction position; rows of the right operand from the contraction
    position, its columns from the result's columns. -/

theorem dotA_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem dotA_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem dotA_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem dotA_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the first layer's stored block. -/
theorem layer1_entry (A X : FVec Ideal S5000x64 .f32) (r : FVec Ideal S5000x1 .f32) (Wl Wr : FVec Ideal S64x64 .f32)
    (b : FVec Ideal S1x64 .f32) (p : Fin 5000) (q : Fin 64) :
    k0_pay1 (F := Ideal) A r X Wl Wr b (ix2 p q)
      = max (((∑ k : Fin 64, (A (ix2 p k) * r (ix2 p (0 : Fin 1))) * Wl (ix2 k q)) + b (ix2 (0 : Fin 1) q))
              + ∑ k : Fin 64, X (ix2 p k) * Wr (ix2 k q)) (Ideal.ofBits .f32 0x00000000#32) := by
  have hL : matmul dot_S5000x64_S64x64_S5000x64_1_0_0_1_n_n none
        (truncf .bf16 (mulf (shapeCast S5000x64 A shapeCasts_S5000x64_S5000x64)
          (broadcastTo S5000x64 (shapeCast S5000x1 r shapeCasts_S5000x1_S5000x1) broadcasts_S5000x1_S5000x64)) bitsLt_bf16_f32)
        (truncf .bf16 Wl bitsLt_bf16_f32) (constant S5000x64 .f32 0x00000000#32) (ix2 p q)
      = ∑ k : Fin 64, (A (ix2 p k) * r (ix2 p (0 : Fin 1))) * Wl (ix2 k q) := by
    refine (Cert.PlainDot.matmul_zero_apply dot_S5000x64_S64x64_S5000x64_1_0_0_1_n_n none rfl rfl dotA_l0 dotA_l1 dotA_r0 dotA_r1 _ _ p q).trans ?_
    refine Finset.sum_congr rfl fun k _ => ?_
    show (shapeCast S5000x64 A shapeCasts_S5000x64_S5000x64 (ix2 p k)
        * broadcastTo S5000x64 (shapeCast S5000x1 r shapeCasts_S5000x1_S5000x1) broadcasts_S5000x1_S5000x64 (ix2 p k)) * Wl (ix2 k q) = _
    rw [shapeCast_self, Cert.Columns.broadcastTo_a1_ab_apply, shapeCast_self]
  have hR : matmul dot_S5000x64_S64x64_S5000x64_1_0_0_1_n_n none (truncf .bf16 X bitsLt_bf16_f32) (truncf .bf16 Wr bitsLt_bf16_f32)
        (constant S5000x64 .f32 0x00000000#32) (ix2 p q) = ∑ k : Fin 64, X (ix2 p k) * Wr (ix2 k q) :=
    Cert.PlainDot.matmul_zero_apply dot_S5000x64_S64x64_S5000x64_1_0_0_1_n_n none rfl rfl dotA_l0 dotA_l1 dotA_r0 dotA_r1 _ _ p q
  have hB : broadcastTo S5000x64 (shapeCast S1x64 b shapeCasts_S1x64_S1x64) broadcasts_S1x64_S5000x64 (ix2 p q)
      = b (ix2 (0 : Fin 1) q) := by
    rw [broadcastTo_1b_ab_apply, shapeCast_self]
  unfold k0_pay1
  show max ((_ + _) + _) _ = _
  rw [hL, hR, hB]
  rfl

end Cert.KernelIdeal.Whole

end
-- ==== Proof.Sage.lean ====
/-
  The mathematics of one SAGE layer, on rows, over the extended reals.

  `lin`      one entry of a dense layer: the row of summed neighbour features, each entry scaled by `s`,
             through one weight column, plus the bias, plus the node's own row through the other column.
  `linDiv`   the same with each summed entry DIVIDED by `d` instead.
  The two agree when `s = 1 / d` and `d = max e 1`: such a `d` is at least 1, so it is not zero, and off
  zero a quotient `y / d` is the product `y · d⁻¹` (infinite `d` included: its inverse is 0 on both sides).
  No finiteness is needed.

  `lsm`      one entry of a row's log-softmax: the entry minus the row's maximum, minus the logarithm of the
             sum of the exponentials of the row so shifted.
-/
import Idealize.ShloMosaic.PureOps.Ideal
import Idealize.ShloMosaic.Lib.ValueIdx

noncomputable section

namespace Cert.Sage

open Idealize.ShloMosaic

def lin {K : ℕ} (a x : Fin K → EReal) (s : EReal) (wl wr : Fin K → EReal) (b : EReal) : EReal :=
  ((∑ k : Fin K, (a k * s) * wl k) + b) + ∑ k : Fin K, x k * wr k

def linDiv {K : ℕ} (a x : Fin K → EReal) (d : EReal) (wl wr : Fin K → EReal) (b : EReal) : EReal :=
  ((∑ k : Fin K, Ideal.div (a k) d * wl k) + b) + ∑ k : Fin K, x k * wr k

/-- Scaling by the reciprocal of `max e 1` is dividing by it, on every extended real. -/
theorem mul_recip_eq_div (y one e : EReal) (h1 : one = 1) :
    y * Ideal.div one (max e one) = Ideal.div y (max e one) := by
  subst h1
  have hd : max e (1 : EReal) ≠ 0 := ne_of_gt (lt_of_lt_of_le zero_lt_one (le_max_right e 1))
  unfold Ideal.div
  rw [if_neg hd, if_neg hd, one_mul]

theorem lin_recip {K : ℕ} (a x : Fin K → EReal) (one e : EReal) (h1 : one = 1) (wl wr : Fin K → EReal) (b : EReal) :
    lin a x (Ideal.div one (max e one)) wl wr b = linDiv a x (max e one) wl wr b := by
  unfold lin linDiv
  simp only [mul_recip_eq_div _ _ _ h1]

def lsm {C : ℕ} (z : Fin C → EReal) (bot : EReal) (q : Fin C) : EReal :=
  (z q - (Finset.univ : Finset (Fin C)).fold max bot z)
    - Ideal.log (∑ q' : Fin C, Ideal.exp (z q' - (Finset.univ : Finset (Fin C)).fold max bot z))

/-- A running maximum started from `bot` is at least `bot`. -/
theorem max_fold_self {C : ℕ} (bot : EReal) (z : Fin C → EReal) :
    max bot ((Finset.univ : Finset (Fin C)).fold max bot z) = (Finset.univ : Finset (Fin C)).fold max bot z :=
  max_eq_right (by rw [Finset.le_fold_max]; exact Or.inl le_rfl)

/-- A matrix given by its entries, read at an index. -/
def ofRows {n m : ℕ} (f : Fin n → Fin m → EReal) : (⟨2, ![n, m]⟩ : Shape).Idx → EReal := fun j => f (j 0) (j 1)

theorem ofRows_ix2 {n m : ℕ} (f : Fin n → Fin m → EReal) (p : Fin n) (q : Fin m) : ofRows f (ValueIdx.ix2 p q) = f p q := rfl

end Cert.Sage

end
-- ==== Proof.Blocks0.lean ====
/-
  The first dense layer's grid, read as ONE function of the arrays it finds.  The grid has 20 points;
  point t fetches rows 5000·t … 5000·t + 4999 of the summed-neighbour array, of the features and of the
  reciprocal-degree column, and the two weight matrices and the bias row whole; it writes back the same rows of
  the result.  So what point t writes back is those rows of the whole-array function `layer1`, and since the
  20 row blocks cover all 100000 rows the result array ends holding `layer1` of the arrays found at entry.
-/
import proofs.«120910_j59373627900056_2_alg».proof.Proof.Gen.KernelIdeal.Frame
import proofs.«120910_j59373627900056_2_alg».proof.Proof.Payload0
import proofs.«120910_j59373627900056_2_alg».proof.Proof.Sage
import Idealize.ShloMosaic.Lib.Pipeline.Value
import Idealize.ShloMosaic.Lib.Tactic

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

theorem hz0 : (![0, 0] : Fin 2 → Nat) = fun _ => 0 := funext fun a => by fin_cases a <;> rfl

/-- The first layer on whole arrays: entry (P, q) from row P of the summed neighbours `A` and of the features
    `X`, the reciprocal degree `r` at P, column q of the two weight matrices and the bias at q; then the
    maximum with zero. -/
def layer1 (A X : S100000x64.Idx → EReal) (r : S100000x1.Idx → EReal) (Wl : S64x64.Idx → EReal) (b : S1x64.Idx → EReal)
    (Wr : S64x64.Idx → EReal) : S100000x64.Idx → EReal :=
  Cert.Sage.ofRows fun (P : Fin 100000) (q : Fin 64) =>
    max (Cert.Sage.lin (fun k : Fin 64 => A (ix2 P k)) (fun k : Fin 64 => X (ix2 P k)) (r (ix2 P (0 : Fin 1)))
      (fun k : Fin 64 => Wl (ix2 k q)) (fun k : Fin 64 => Wr (ix2 k q)) (b (ix2 (0 : Fin 1) q))) (Ideal.ofBits .f32 0x00000000#32)

variable (V : (c : Dev nD) → (b : Ref sig .tc) → Buf (Elt Ideal) ((c : Thread nD τ).loc b))

/-- The printed index maps over the grid: the row-blocked windows sit at block row t, column 0; the weights
    and the bias at block (0, 0). -/
theorem idx0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0) :=
  (by decide +kernel : ∀ t : Fin grid0.N, _)

/-- Row p of point t's block of window 0's array is row 5000·t + p of the array. -/
theorem blk0_0 (c : Dev nD) (t : Fin cfg0.N) (p : Fin 5000) (k : Fin 64) (P : Fin 100000) (hP : P.val = 5000 * t.val + p.val) :
    (iblk0 V c 0 t : S5000x64.Idx → EReal) (ix2 p k) = (V c main_v21 : S100000x64.Idx → EReal) (ix2 P k) := by
  have e := idx0 t
  have e0 : win0_0.index t (0 : Fin 2) = t.val := e.1.1
  have e1 : win0_0.index t (1 : Fin 2) = 0 := e.1.2
  unfold iblk0
  rw [View.read_apply]
  show V c main_v21 _ = V c main_v21 _
  refine congrArg (V c main_v21) (funext fun a => Fin.ext ?_)
  match a with
  | ⟨0, _⟩ => show win0_0.index t (0 : Fin 2) * 5000 + 1 * p.val = P.val; rw [e0, hP]; omega
  | ⟨1, _⟩ => show win0_0.index t (1 : Fin 2) * 64 + 1 * k.val = k.val; rw [e1]; omega

/-- Row p of point t's block of window 1's array is row 5000·t + p of the array. -/
theorem blk0_1 (c : Dev nD) (t : Fin cfg0.N) (p : Fin 5000) (k : Fin 64) (P : Fin 100000) (hP : P.val = 5000 * t.val + p.val) :
    (iblk0 V c 1 t : S5000x64.Idx → EReal) (ix2 p k) = (V c main_arg0 : S100000x64.Idx → EReal) (ix2 P k) := by
  have e := idx0 t
  have e0 : win0_1.index t (0 : Fin 2) = t.val := e.2.1.1
  have e1 : win0_1.index t (1 : Fin 2) = 0 := e.2.1.2
  unfold iblk0
  rw [View.read_apply]
  show V c main_arg0 _ = V c main_arg0 _
  refine congrArg (V c main_arg0) (funext fun a => Fin.ext ?_)
  match a with
  | ⟨0, _⟩ => show win0_1.index t (0 : Fin 2) * 5000 + 1 * p.val = P.val; rw [e0, hP]; omega
  | ⟨1, _⟩ => show win0_1.index t (1 : Fin 2) * 64 + 1 * k.val = k.val; rw [e1]; omega

/-- Row p of point t's block of window 2's array is row 5000·t + p of the array. -/
theorem blk0_2 (c : Dev nD) (t : Fin cfg0.N) (p : Fin 5000) (k : Fin 1) (P : Fin 100000) (hP : P.val = 5000 * t.val + p.val) :
    (iblk0 V c 2 t : S5000x1.Idx → EReal) (ix2 p k) = (V c main_v23 : S100000x1.Idx → EReal) (ix2 P k) := by
  have e := idx0 t
  have e0 : win0_2.index t (0 : Fin 2) = t.val := e.2.2.1.1
  have e1 : win0_2.index t (1 : Fin 2) = 0 := e.2.2.1.2
  unfold iblk0
  rw [View.read_apply]
  show V c main_v23 _ = V c main_v23 _
  refine congrArg (V c main_v23) (funext fun a => Fin.ext ?_)
  match a with
  | ⟨0, _⟩ => show win0_2.index t (0 : Fin 2) * 5000 + 1 * p.val = P.val; rw [e0, hP]; omega
  | ⟨1, _⟩ => show win0_2.index t (1 : Fin 2) * 1 + 1 * k.val = k.val; rw [e1]; omega

/-- Window 3's block is its whole array at every point. -/
theorem blk0_3 (c : Dev nD) (t : Fin cfg0.N) (u : Fin 64) (k : Fin 64) :
    (iblk0 V c 3 t : S64x64.Idx → EReal) (ix2 u k) = (V c main_arg2 : S64x64.Idx → EReal) (ix2 u k) := by
  have e := idx0 t
  have e0 : win0_3.index t (0 : Fin 2) = 0 := e.2.2.2.1.1
  have e1 : win0_3.index t (1 : Fin 2) = 0 := e.2.2.2.1.2
  unfold iblk0
  rw [View.read_apply]
  show V c main_arg2 _ = V c main_arg2 _
  refine congrArg (V c main_arg2) (funext fun a => Fin.ext ?_)
  match a with
  | ⟨0, _⟩ => show win0_3.index t (0 : Fin 2) * 64 + 1 * u.val = u.val; rw [e0]; omega
  | ⟨1, _⟩ => show win0_3.index t (1 : Fin 2) * 64 + 1 * k.val = k.val; rw [e1]; omega

/-- Window 4's block is its whole array at every point. -/
theorem blk0_4 (c : Dev nD) (t : Fin cfg0.N) (u : Fin 1) (k : Fin 64) :
    (iblk0 V c 4 t : S1x64.Idx → EReal) (ix2 u k) = (V c main_v22 : S1x64.Idx → EReal) (ix2 u k) := by
  have e := idx0 t
  have e0 : win0_4.index t (0 : Fin 2) = 0 := e.2.2.2.2.1.1
  have e1 : win0_4.index t (1 : Fin 2) = 0 := e.2.2.2.2.1.2
  unfold iblk0
  rw [View.read_apply]
  show V c main_v22 _ = V c main_v22 _
  refine congrArg (V c main_v22) (funext fun a => Fin.ext ?_)
  match a with
  | ⟨0, _⟩ => show win0_4.index t (0 : Fin 2) * 1 + 1 * u.val = u.val; rw [e0]; omega
  | ⟨1, _⟩ => show win0_4.index t (1 : Fin 2) * 64 + 1 * k.val = k.val; rw [e1]; omega

/-- Window 5's block is its whole array at every point. -/
theorem blk0_5 (c : Dev nD) (t : Fin cfg0.N) (u : Fin 64) (k : Fin 64) :
    (iblk0 V c 5 t : S64x64.Idx → EReal) (ix2 u k) = (V c main_arg4 : S64x64.Idx → EReal) (ix2 u k) := by
  have e := idx0 t
  have e0 : win0_5.index t (0 : Fin 2) = 0 := e.2.2.2.2.2.1.1
  have e1 : win0_5.index t (1 : Fin 2) = 0 := e.2.2.2.2.2.1.2
  unfold iblk0
  rw [View.read_apply]
  show V c main_arg4 _ = V c main_arg4 _
  refine congrArg (V c main_arg4) (funext fun a => Fin.ext ?_)
  match a with
  | ⟨0, _⟩ => show win0_5.index t (0 : Fin 2) * 64 + 1 * u.val = u.val; rw [e0]; omega
  | ⟨1, _⟩ => show win0_5.index t (1 : Fin 2) * 64 + 1 * k.val = k.val; rw [e1]; omega

/-- WHAT POINT t WRITES BACK: rows 5000·t … of `layer1` of the arrays as the grid finds them. -/
theorem flushed0 (c : Dev nD) (t : Fin cfg0.N) :
    (dat0 V c).flushed 6 t = ((cfg0.win 6).blk t).view.read (Elt Ideal)
      (layer1 (V c main_v21) (V c main_arg0) (V c main_v23) (V c main_arg2) (V c main_v22) (V c main_arg4)) := by
  show (cfg0.win 6).cut (grid0.coords t) ((dat0 V c).after 6 t) = _
  rw [after0_6]
  unfold out0_6
  rw [View.canon_unit_zero hz0]
  simp only [View.ld_unit_zero (S := S5000x64) hz0, View.ld_unit_zero (S := S5000x1) hz0, View.ld_unit_zero (S := S64x64) hz0, View.ld_unit_zero (S := S1x64) hz0]
  funext j
  obtain ⟨p, q, rfl⟩ : ∃ (p : Fin 5000) (q : Fin 64), j = ix2 p q := ⟨j 0, j 1, eq_ix2 j⟩
  have hN : cfg0.N = 20 := N_0
  have hP : 5000 * t.val + p.val < 100000 := by have := t.isLt; omega
  have e6 := (idx0 t).2.2.2.2.2.2
  have hemb : ((cfg0.win 6).blk t).view.emb (ix2 p q) = ix2 (⟨5000 * t.val + p.val, hP⟩ : Fin 100000) q :=
    funext fun a => Fin.ext (by
      match a with
      | ⟨0, _⟩ => show win0_6.index t (0 : Fin 2) * 5000 + 1 * p.val = 5000 * t.val + p.val; rw [e6.1]; omega
      | ⟨1, _⟩ => show win0_6.index t (1 : Fin 2) * 64 + 1 * q.val = q.val; rw [e6.2]; omega)
  show k0_pay1 (F := Ideal) (iblk0 V c 0 t) (iblk0 V c 2 t) (iblk0 V c 1 t) (iblk0 V c 3 t) (iblk0 V c 5 t) (iblk0 V c 4 t) (ix2 p q)
    = layer1 (V c main_v21) (V c main_arg0) (V c main_v23) (V c main_arg2) (V c main_v22) (V c main_arg4) (((cfg0.win 6).blk t).view.emb (ix2 p q))
  rw [hemb]
  refine (layer1_entry (iblk0 V c 0 t) (iblk0 V c 1 t) (iblk0 V c 2 t) (iblk0 V c 3 t) (iblk0 V c 5 t) (iblk0 V c 4 t) p q).trans ?_
  show max (Cert.Sage.lin (fun k : Fin 64 => iblk0 V c 0 t (ix2 p k)) (fun k : Fin 64 => iblk0 V c 1 t (ix2 p k)) (iblk0 V c 2 t (ix2 p (0 : Fin 1)))
        (fun k : Fin 64 => iblk0 V c 3 t (ix2 k q)) (fun k : Fin 64 => iblk0 V c 5 t (ix2 k q)) (iblk0 V c 4 t (ix2 (0 : Fin 1) q))) (Ideal.ofBits .f32 0x00000000#32) = _
  have hA : (fun k : Fin 64 => iblk0 V c 0 t (ix2 p k)) = fun k : Fin 64 => (V c main_v21 : S100000x64.Idx → EReal) (ix2 (⟨5000 * t.val + p.val, hP⟩ : Fin 100000) k) :=
    funext fun k => blk0_0 V c t p k _ rfl
  have hX : (fun k : Fin 64 => iblk0 V c 1 t (ix2 p k)) = fun k : Fin 64 => (V c main_arg0 : S100000x64.Idx → EReal) (ix2 (⟨5000 * t.val + p.val, hP⟩ : Fin 100000) k) :=
    funext fun k => blk0_1 V c t p k _ rfl
  have hr : iblk0 V c 2 t (ix2 p (0 : Fin 1)) = (V c main_v23 : S100000x1.Idx → EReal) (ix2 (⟨5000 * t.val + p.val, hP⟩ : Fin 100000) (0 : Fin 1)) :=
    blk0_2 V c t p 0 _ rfl
  have hWl : ∀ q' : Fin 64, (fun k : Fin 64 => iblk0 V c 3 t (ix2 k q')) = fun k : Fin 64 => (V c main_arg2 : S64x64.Idx → EReal) (ix2 k q') :=
    fun q' => funext fun k => blk0_3 V c t k q'
  have hWr : ∀ q' : Fin 64, (fun k : Fin 64 => iblk0 V c 5 t (ix2 k q')) = fun k : Fin 64 => (V c main_arg4 : S64x64.Idx → EReal) (ix2 k q') :=
    fun q' => funext fun k => blk0_5 V c t k q'
  have hb : ∀ q' : Fin 64, iblk0 V c 4 t (ix2 (0 : Fin 1) q') = (V c main_v22 : S1x64.Idx → EReal) (ix2 (0 : Fin 1) q') :=
    fun q' => blk0_4 V c t 0 q'
  rw [hA, hX, hr]
  simp only [hWl, hWr, hb]
  rfl

/-- An index of the result array is in point t's block iff each coordinate is in the block's range. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v24).slice (win0_6.rect t)).set ↔ _
  rw [View.set_slice_whole, Rect.mem_set_unit]
  exact Iff.rfl

/-- Row P lies in the block of point P / 5000: the 20 blocks cover the array. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  have ht : (i 0).val / 5000 < cfg0.N := by omega
  have e6 := (idx0 ⟨(i 0).val / 5000, ht⟩).2.2.2.2.2.2
  refine ⟨⟨(i 0).val / 5000, ht⟩, flush0_6 _, ?_⟩
  rw [mem_blk0]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    rw [e6.1]; show (i 0).val / 5000 * 5000 ≤ (i 0).val ∧ (i 0).val < (i 0).val / 5000 * 5000 + 5000; omega
  | ⟨1, _⟩ =>
    show win0_6.index ⟨(i 0).val / 5000, ht⟩ (1 : Fin 2) * 64 ≤ (i 1).val ∧ (i 1).val < win0_6.index ⟨(i 0).val / 5000, ht⟩ (1 : Fin 2) * 64 + 64
    rw [e6.2]; omega

/-- THE ARRAY after the grid: `layer1` of the arrays found at entry. -/
theorem final0 (c : Dev nD) :
    (dat0 V c).arrAt 6 cfg0.N = layer1 (V c main_v21) (V c main_arg0) (V c main_v23) (V c main_arg2) (V c main_v22) (V c main_arg4) :=
  (dat0 V c).arrAt_eq_of_cover 6 _ (fun t _ => flushed0 V c t) (cover0)

end Cert.KernelIdeal.Whole

end
-- ==== Proof.Payload1.lean ====
/-
  The second dense layer with its log-softmax, on one block of 5000 rows.  The pre-activation entry is the
  first layer's linear form over 40 output columns; the stored entry (p, q) is the log-softmax of row p at
  q: the entry minus the row's maximum, minus the logarithm of the sum over the row of the exponentials of
  the entries so shifted.  The row maximum is a running maximum started at the accumulator's value, the row
  sum a plain sum (it starts from zero).
-/
import proofs.«120910_j59373627900056_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«120910_j59373627900056_2_alg».proof.Proof.LibColumns
import proofs.«120910_j59373627900056_2_alg».proof.Proof.LibMatmul
import proofs.«120910_j59373627900056_2_alg».proof.Proof.Sage

noncomputable section

namespace Cert.KernelIdeal.Whole

open Idealize.ShloMosaic Idealize.ShloMosaic.ValueIdx
open Cert.KernelIdeal Cert.KernelIdeal.Gen

/-! The [5000,64] x [64,40] product's dimension numbers. -/

theorem dotB_l0 (i : S5000x40.Idx) (q : dot_S5000x64_S64x40_S5000x40_1_0_0_1_n_n.contr.Idx) : (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem dotB_l1 (i : S5000x40.Idx) (q : dot_S5000x64_S64x40_S5000x40_1_0_0_1_n_n.contr.Idx) : (dot_S5000x64_S64x40_S5000x40_1_0_0_1_n_n.lhsIdx i q 1).val = (q ⟨0, by decide⟩).val :=
  dot_S5000x64_S64x40_S5000x40_1_0_0_1_n_n.lhsIdx_val_of_single rfl i q
theorem dotB_r0 (i : S5000x40.Idx) (q : dot_S5000x64_S64x40_S5000x40_1_0_0_1_n_n.contr.Idx) : (dot_S5000x64_S64x40_S5000x40_1_0_0_1_n_n.rhsIdx i q 0).val = (q ⟨0, by decide⟩).val :=
  dot_S5000x64_S64x40_S5000x40_1_0_0_1_n_n.rhsIdx_val_of_single rfl i q
theorem dotB_r1 (i : S5000x40.Idx) (q : dot_S5000x64_S64x40_S5000x40_1_0_0_1_n_n.contr.Idx) : (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- The block before the softmax: both products and the bias. -/
def pre2 (A X : FVec Ideal S5000x64 .f32) (r : FVec Ideal S5000x1 .f32) (Wl Wr : FVec Ideal S64x40 .f32)
    (b : FVec Ideal S1x40 .f32) : FVec Ideal S5000x40 .f32 :=
  addf (addf
    (matmul dot_S5000x64_S64x40_S5000x40_1_0_0_1_n_n none
      (truncf .bf16 (mulf (shapeCast S5000x64 A shapeCasts_S5000x64_S5000x64)
        (broadcastTo S5000x64 (shapeCast S5000x1 r shapeCasts_S5000x1_S5000x1) broadcasts_S5000x1_S5000x64)) bitsLt_bf16_f32)
      (truncf .bf16 Wl bitsLt_bf16_f32) (constant (F := Ideal) S5000x40 .f32 0x00000000#32))
    (broadcastTo S5000x40 (shapeCast S1x40 b shapeCasts_S1x40_S1x40) broadcasts_S1x40_S5000x40))
    (matmul dot_S5000x64_S64x40_S5000x40_1_0_0_1_n_n none (truncf .bf16 (shapeCast S5000x64 X shapeCasts_S5000x64_S5000x64) bitsLt_bf16_f32)
      (truncf .bf16 Wr bitsLt_bf16_f32) (constant (F := Ideal) S5000x40 .f32 0x00000000#32))

/-- Entry (p, q) of the block before the softmax. -/
theorem pre2_entry (A X : FVec Ideal S5000x64 .f32) (r : FVec Ideal S5000x1 .f32) (Wl Wr : FVec Ideal S64x40 .f32)
    (b : FVec Ideal S1x40 .f32) (p : Fin 5000) (q : Fin 40) :
    pre2 A X r Wl Wr b (ix2 p q)
      = Cert.Sage.lin (fun k : Fin 64 => A (ix2 p k)) (fun k : Fin 64 => X (ix2 p k)) (r (ix2 p (0 : Fin 1)))
          (fun k : Fin 64 => Wl (ix2 k q)) (fun k : Fin 64 => Wr (ix2 k q)) (b (ix2 (0 : Fin 1) q)) := by
  have hL : matmul dot_S5000x64_S64x40_S5000x40_1_0_0_1_n_n none
        (truncf .bf16 (mulf (shapeCast S5000x64 A shapeCasts_S5000x64_S5000x64)
          (broadcastTo S5000x64 (shapeCast S5000x1 r shapeCasts_S5000x1_S5000x1) broadcasts_S5000x1_S5000x64)) bitsLt_bf16_f32)
        (truncf .bf16 Wl bitsLt_bf16_f32) (constant S5000x40 .f32 0x00000000#32) (ix2 p q)
      = ∑ k : Fin 64, (A (ix2 p k) * r (ix2 p (0 : Fin 1))) * Wl (ix2 k q) := by
    refine (Cert.PlainDot.matmul_zero_apply dot_S5000x64_S64x40_S5000x40_1_0_0_1_n_n none rfl rfl dotB_l0 dotB_l1 dotB_r0 dotB_r1 _ _ p q).trans ?_
    refine Finset.sum_congr rfl fun k _ => ?_
    show (shapeCast S5000x64 A shapeCasts_S5000x64_S5000x64 (ix2 p k)
        * broadcastTo S5000x64 (shapeCast S5000x1 r shapeCasts_S5000x1_S5000x1) broadcasts_S5000x1_S5000x64 (ix2 p k)) * Wl (ix2 k q) = _
    rw [shapeCast_self, Cert.Columns.broadcastTo_a1_ab_apply, shapeCast_self]
  have hR : matmul dot_S5000x64_S64x40_S5000x40_1_0_0_1_n_n none (truncf .bf16 (shapeCast S5000x64 X shapeCasts_S5000x64_S5000x64) bitsLt_bf16_f32)
        (truncf .bf16 Wr bitsLt_bf16_f32) (constant S5000x40 .f32 0x00000000#32) (ix2 p q)
      = ∑ k : Fin 64, X (ix2 p k) * Wr (ix2 k q) := by
    refine (Cert.PlainDot.matmul_zero_apply dot_S5000x64_S64x40_S5000x40_1_0_0_1_n_n none rfl rfl dotB_l0 dotB_l1 dotB_r0 dotB_r1 _ _ p q).trans ?_
    refine Finset.sum_congr rfl fun k _ => ?_
    show shapeCast S5000x64 X shapeCasts_S5000x64_S5000x64 (ix2 p k) * Wr (ix2 k q) = _
    rw [shapeCast_self]
  have hB : broadcastTo S5000x40 (shapeCast S1x40 b shapeCasts_S1x40_S1x40) broadcasts_S1x40_S5000x40 (ix2 p q)
      = b (ix2 (0 : Fin 1) q) := by
    rw [broadcastTo_1b_ab_apply, shapeCast_self]
  unfold pre2 Cert.Sage.lin
  show (_ + _) + _ = _
  rw [hL, hR, hB]

/-- A vector of 5000 entries as a column, broadcast along 40 columns. -/
def col40 (v : FVec Ideal S5000 .f32) : FVec Ideal S5000x40 .f32 :=
  broadcastTo S5000x40 (shapeCast S5000x1 v shapeCasts_S5000_S5000x1) broadcasts_S5000x1_S5000x40

theorem col40_apply (v : FVec Ideal S5000 .f32) (p : Fin 5000) (q : Fin 40) : col40 v (ix2 p q) = v (ix1 p) := by
  unfold col40
  rw [Cert.Columns.broadcastTo_a1_ab_apply, Cert.Columns.shapeCast_a_a1_apply]

/-- The rows' maxima of a block. -/
def rowMax (Z : FVec Ideal S5000x40 .f32) : FVec Ideal S5000 .f32 :=
  multiReduction .maximumf [1] S5000 Z 0xFF800000#32 reduces_S5000x40_S5000 (.inl rfl) rfl

theorem rowMax_apply (Z : FVec Ideal S5000x40 .f32) (p : Fin 5000) :
    rowMax Z (ix1 p) = (Finset.univ : Finset (Fin 40)).fold max (Ideal.ofBits .f32 0xFF800000#32) (fun q' : Fin 40 => Z (ix2 p q')) := by
  refine (Ideal.multiReduction_maximumf_single Z 0xFF800000#32 reduces_S5000x40_S5000 (.inl rfl) rfl (ix1 p)).trans ?_
  refine congrArg ((Finset.univ : Finset (Fin 40)).fold max (Ideal.ofBits .f32 0xFF800000#32)) (funext fun k => ?_)
  exact congrArg Z (Cert.Columns.lift_row reduces_S5000x40_S5000 p k)

/-- The rows' sums of a block. -/
def rowSum (Z : FVec Ideal S5000x40 .f32) : FVec Ideal S5000 .f32 :=
  multiReduction .add [1] S5000 Z 0x00000000#32 reduces_S5000x40_S5000 (.inl rfl) rfl

theorem rowSum_apply (Z : FVec Ideal S5000x40 .f32) (p : Fin 5000) :
    rowSum Z (ix1 p) = ∑ q' : Fin 40, Z (ix2 p q') := by
  refine (Ideal.multiReduction_add_single Z 0x00000000#32 reduces_S5000x40_S5000 (.inl rfl) rfl (ix1 p)).trans ?_
  refine Finset.sum_congr rfl fun k _ => ?_
  exact congrArg Z (Cert.Columns.lift_row reduces_S5000x40_S5000 p k)

/-- The log-softmax of a block, as the body spells it. -/
def softTail (Z : FVec Ideal S5000x40 .f32) : FVec Ideal S5000x40 .f32 :=
  subf (subf Z (col40 (rowMax Z)))
    (broadcastTo S5000x40 (log (shapeCast S5000x1 (rowSum (exp (subf Z (col40 (rowMax Z))))) shapeCasts_S5000_S5000x1))
      broadcasts_S5000x1_S5000x40)

theorem softTail_entry (Z : FVec Ideal S5000x40 .f32) (p : Fin 5000) (q : Fin 40) :
    softTail Z (ix2 p q) = Cert.Sage.lsm (fun q' : Fin 40 => Z (ix2 p q')) (Ideal.ofBits .f32 0xFF800000#32) q := by
  have hs : ∀ q' : Fin 40, subf Z (col40 (rowMax Z)) (ix2 p q')
      = Z (ix2 p q') - (Finset.univ : Finset (Fin 40)).fold max (Ideal.ofBits .f32 0xFF800000#32) (fun q'' : Fin 40 => Z (ix2 p q'')) := by
    intro q'
    show Z (ix2 p q') - col40 (rowMax Z) (ix2 p q') = _
    rw [col40_apply, rowMax_apply]
  have hl : broadcastTo S5000x40 (log (shapeCast S5000x1 (rowSum (exp (subf Z (col40 (rowMax Z))))) shapeCasts_S5000_S5000x1))
        broadcasts_S5000x1_S5000x40 (ix2 p q)
      = Ideal.log (∑ q' : Fin 40, Ideal.exp (subf Z (col40 (rowMax Z)) (ix2 p q'))) := by
    rw [Cert.Columns.broadcastTo_a1_ab_apply]
    show Ideal.log (shapeCast S5000x1 (rowSum (exp (subf Z (col40 (rowMax Z))))) shapeCasts_S5000_S5000x1 (ix2 p (0 : Fin 1))) = _
    rw [Cert.Columns.shapeCast_a_a1_apply, rowSum_apply]
    rfl
  unfold softTail Cert.Sage.lsm
  show (subf Z (col40 (rowMax Z)) (ix2 p q)) - _ = _
  rw [hl, hs q]
  simp only [hs]

/-- The second layer's payload is the log-softmax of the pre-activation block. -/
theorem k1_pay1_eq (A X : FVec Ideal S5000x64 .f32) (r : FVec Ideal S5000x1 .f32) (Wl Wr : FVec Ideal S64x40 .f32)
    (b : FVec Ideal S1x40 .f32) : k1_pay1 (F := Ideal) A r X Wl Wr b = softTail (pre2 A X r Wl Wr b) := rfl

/-- Entry (p, q) of the second layer's stored block. -/
theorem layer2_entry (A X : FVec Ideal S5000x64 .f32) (r : FVec Ideal S5000x1 .f32) (Wl Wr : FVec Ideal S64x40 .f32)
    (b : FVec Ideal S1x40 .f32) (p : Fin 5000) (q : Fin 40) :
    k1_pay1 (F := Ideal) A r X Wl Wr b (ix2 p q)
      = Cert.Sage.lsm (fun q' : Fin 40 =>
          Cert.Sage.lin (fun k : Fin 64 => A (ix2 p k)) (fun k : Fin 64 => X (ix2 p k)) (r (ix2 p (0 : Fin 1)))
            (fun k : Fin 64 => Wl (ix2 k q')) (fun k : Fin 64 => Wr (ix2 k q')) (b (ix2 (0 : Fin 1) q')))
          (Ideal.ofBits .f32 0xFF800000#32) q := by
  rw [k1_pay1_eq, softTail_entry]
  simp only [pre2_entry]

end Cert.KernelIdeal.Whole

end
-- ==== Proof.Blocks1.lean ====
/-
  The second dense layer's grid, read as ONE function of the arrays it finds.  The grid has 20 points;
  point t fetches rows 5000·t … 5000·t + 4999 of the summed-neighbour array, of the hidden features and of the
  reciprocal-degree column, and the two weight matrices and the bias row whole; it writes back the same rows of
  the result.  So what point t writes back is those rows of the whole-array function `layer2`, and since the
  20 row blocks cover all 100000 rows the result array ends holding `layer2` of the arrays found at entry.
-/
import proofs.«120910_j59373627900056_2_alg».proof.Proof.Gen.KernelIdeal.Frame
import proofs.«120910_j59373627900056_2_alg».proof.Proof.Payload1
import proofs.«120910_j59373627900056_2_alg».proof.Proof.Sage
import Idealize.ShloMosaic.Lib.Pipeline.Value
import Idealize.ShloMosaic.Lib.Tactic

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen

theorem hz1 : (![0, 0] : Fin 2 → Nat) = fun _ => 0 := funext fun a => by fin_cases a <;> rfl

/-- The second layer on whole arrays: row P's 40 pre-activation entries from row P of the summed neighbours
    `A` and of the hidden features `X`, the reciprocal degree `r` at P, the weight columns and the bias; then
    the row's log-softmax at q. -/
def layer2 (A X : S100000x64.Idx → EReal) (r : S100000x1.Idx → EReal) (Wl : S64x40.Idx → EReal) (b : S1x40.Idx → EReal)
    (Wr : S64x40.Idx → EReal) : S100000x40.Idx → EReal :=
  Cert.Sage.ofRows fun (P : Fin 100000) (q : Fin 40) =>
    Cert.Sage.lsm (fun q' : Fin 40 =>
      Cert.Sage.lin (fun k : Fin 64 => A (ix2 P k)) (fun k : Fin 64 => X (ix2 P k)) (r (ix2 P (0 : Fin 1)))
        (fun k : Fin 64 => Wl (ix2 k q')) (fun k : Fin 64 => Wr (ix2 k q')) (b (ix2 (0 : Fin 1) q')))
      (Ideal.ofBits .f32 0xFF800000#32) q

variable (V : (c : Dev nD) → (b : Ref sig .tc) → Buf (Elt Ideal) ((c : Thread nD τ).loc b))

/-- The printed index maps over the grid: the row-blocked windows sit at block row t, column 0; the weights
    and the bias at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- Row p of point t's block of window 0's array is row 5000·t + p of the array. -/
theorem blk1_0 (c : Dev nD) (t : Fin cfg1.N) (p : Fin 5000) (k : Fin 64) (P : Fin 100000) (hP : P.val = 5000 * t.val + p.val) :
    (iblk1 V c 0 t : S5000x64.Idx → EReal) (ix2 p k) = (V c main_v34 : S100000x64.Idx → EReal) (ix2 P k) := by
  have e := idx1 t
  have e0 : win1_0.index t (0 : Fin 2) = t.val := e.1.1
  have e1 : win1_0.index t (1 : Fin 2) = 0 := e.1.2
  unfold iblk1
  rw [View.read_apply]
  show V c main_v34 _ = V c main_v34 _
  refine congrArg (V c main_v34) (funext fun a => Fin.ext ?_)
  match a with
  | ⟨0, _⟩ => show win1_0.index t (0 : Fin 2) * 5000 + 1 * p.val = P.val; rw [e0, hP]; omega
  | ⟨1, _⟩ => show win1_0.index t (1 : Fin 2) * 64 + 1 * k.val = k.val; rw [e1]; omega

/-- Row p of point t's block of window 1's array is row 5000·t + p of the array. -/
theorem blk1_1 (c : Dev nD) (t : Fin cfg1.N) (p : Fin 5000) (k : Fin 64) (P : Fin 100000) (hP : P.val = 5000 * t.val + p.val) :
    (iblk1 V c 1 t : S5000x64.Idx → EReal) (ix2 p k) = (V c main_v24 : S100000x64.Idx → EReal) (ix2 P k) := by
  have e := idx1 t
  have e0 : win1_1.index t (0 : Fin 2) = t.val := e.2.1.1
  have e1 : win1_1.index t (1 : Fin 2) = 0 := e.2.1.2
  unfold iblk1
  rw [View.read_apply]
  show V c main_v24 _ = V c main_v24 _
  refine congrArg (V c main_v24) (funext fun a => Fin.ext ?_)
  match a with
  | ⟨0, _⟩ => show win1_1.index t (0 : Fin 2) * 5000 + 1 * p.val = P.val; rw [e0, hP]; omega
  | ⟨1, _⟩ => show win1_1.index t (1 : Fin 2) * 64 + 1 * k.val = k.val; rw [e1]; omega

/-- Row p of point t's block of window 2's array is row 5000·t + p of the array. -/
theorem blk1_2 (c : Dev nD) (t : Fin cfg1.N) (p : Fin 5000) (k : Fin 1) (P : Fin 100000) (hP : P.val = 5000 * t.val + p.val) :
    (iblk1 V c 2 t : S5000x1.Idx → EReal) (ix2 p k) = (V c main_v36 : S100000x1.Idx → EReal) (ix2 P k) := by
  have e := idx1 t
  have e0 : win1_2.index t (0 : Fin 2) = t.val := e.2.2.1.1
  have e1 : win1_2.index t (1 : Fin 2) = 0 := e.2.2.1.2
  unfold iblk1
  rw [View.read_apply]
  show V c main_v36 _ = V c main_v36 _
  refine congrArg (V c main_v36) (funext fun a => Fin.ext ?_)
  match a with
  | ⟨0, _⟩ => show win1_2.index t (0 : Fin 2) * 5000 + 1 * p.val = P.val; rw [e0, hP]; omega
  | ⟨1, _⟩ => show win1_2.index t (1 : Fin 2) * 1 + 1 * k.val = k.val; rw [e1]; omega

/-- Window 3's block is its whole array at every point. -/
theorem blk1_3 (c : Dev nD) (t : Fin cfg1.N) (u : Fin 64) (k : Fin 40) :
    (iblk1 V c 3 t : S64x40.Idx → EReal) (ix2 u k) = (V c main_arg5 : S64x40.Idx → EReal) (ix2 u k) := by
  have e := idx1 t
  have e0 : win1_3.index t (0 : Fin 2) = 0 := e.2.2.2.1.1
  have e1 : win1_3.index t (1 : Fin 2) = 0 := e.2.2.2.1.2
  unfold iblk1
  rw [View.read_apply]
  show V c main_arg5 _ = V c main_arg5 _
  refine congrArg (V c main_arg5) (funext fun a => Fin.ext ?_)
  match a with
  | ⟨0, _⟩ => show win1_3.index t (0 : Fin 2) * 64 + 1 * u.val = u.val; rw [e0]; omega
  | ⟨1, _⟩ => show win1_3.index t (1 : Fin 2) * 40 + 1 * k.val = k.val; rw [e1]; omega

/-- Window 4's block is its whole array at every point. -/
theorem blk1_4 (c : Dev nD) (t : Fin cfg1.N) (u : Fin 1) (k : Fin 40) :
    (iblk1 V c 4 t : S1x40.Idx → EReal) (ix2 u k) = (V c main_v35 : S1x40.Idx → EReal) (ix2 u k) := by
  have e := idx1 t
  have e0 : win1_4.index t (0 : Fin 2) = 0 := e.2.2.2.2.1.1
  have e1 : win1_4.index t (1 : Fin 2) = 0 := e.2.2.2.2.1.2
  unfold iblk1
  rw [View.read_apply]
  show V c main_v35 _ = V c main_v35 _
  refine congrArg (V c main_v35) (funext fun a => Fin.ext ?_)
  match a with
  | ⟨0, _⟩ => show win1_4.index t (0 : Fin 2) * 1 + 1 * u.val = u.val; rw [e0]; omega
  | ⟨1, _⟩ => show win1_4.index t (1 : Fin 2) * 40 + 1 * k.val = k.val; rw [e1]; omega

/-- Window 5's block is its whole array at every point. -/
theorem blk1_5 (c : Dev nD) (t : Fin cfg1.N) (u : Fin 64) (k : Fin 40) :
    (iblk1 V c 5 t : S64x40.Idx → EReal) (ix2 u k) = (V c main_arg7 : S64x40.Idx → EReal) (ix2 u k) := by
  have e := idx1 t
  have e0 : win1_5.index t (0 : Fin 2) = 0 := e.2.2.2.2.2.1.1
  have e1 : win1_5.index t (1 : Fin 2) = 0 := e.2.2.2.2.2.1.2
  unfold iblk1
  rw [View.read_apply]
  show V c main_arg7 _ = V c main_arg7 _
  refine congrArg (V c main_arg7) (funext fun a => Fin.ext ?_)
  match a with
  | ⟨0, _⟩ => show win1_5.index t (0 : Fin 2) * 64 + 1 * u.val = u.val; rw [e0]; omega
  | ⟨1, _⟩ => show win1_5.index t (1 : Fin 2) * 40 + 1 * k.val = k.val; rw [e1]; omega

/-- WHAT POINT t WRITES BACK: rows 5000·t … of `layer2` of the arrays as the grid finds them. -/
theorem flushed1 (c : Dev nD) (t : Fin cfg1.N) :
    (dat1 V c).flushed 6 t = ((cfg1.win 6).blk t).view.read (Elt Ideal)
      (layer2 (V c main_v34) (V c main_v24) (V c main_v36) (V c main_arg5) (V c main_v35) (V c main_arg7)) := by
  show (cfg1.win 6).cut (grid1.coords t) ((dat1 V c).after 6 t) = _
  rw [after1_6]
  unfold out1_6
  rw [View.canon_unit_zero hz1]
  simp only [View.ld_unit_zero (S := S5000x64) hz1, View.ld_unit_zero (S := S5000x1) hz1, View.ld_unit_zero (S := S64x40) hz1, View.ld_unit_zero (S := S1x40) hz1]
  funext j
  obtain ⟨p, q, rfl⟩ : ∃ (p : Fin 5000) (q : Fin 40), j = ix2 p q := ⟨j 0, j 1, eq_ix2 j⟩
  have hN : cfg1.N = 20 := N_1
  have hP : 5000 * t.val + p.val < 100000 := by have := t.isLt; omega
  have e6 := (idx1 t).2.2.2.2.2.2
  have hemb : ((cfg1.win 6).blk t).view.emb (ix2 p q) = ix2 (⟨5000 * t.val + p.val, hP⟩ : Fin 100000) q :=
    funext fun a => Fin.ext (by
      match a with
      | ⟨0, _⟩ => show win1_6.index t (0 : Fin 2) * 5000 + 1 * p.val = 5000 * t.val + p.val; rw [e6.1]; omega
      | ⟨1, _⟩ => show win1_6.index t (1 : Fin 2) * 40 + 1 * q.val = q.val; rw [e6.2]; omega)
  show k1_pay1 (F := Ideal) (iblk1 V c 0 t) (iblk1 V c 2 t) (iblk1 V c 1 t) (iblk1 V c 3 t) (iblk1 V c 5 t) (iblk1 V c 4 t) (ix2 p q)
    = layer2 (V c main_v34) (V c main_v24) (V c main_v36) (V c main_arg5) (V c main_v35) (V c main_arg7) (((cfg1.win 6).blk t).view.emb (ix2 p q))
  rw [hemb]
  refine (layer2_entry (iblk1 V c 0 t) (iblk1 V c 1 t) (iblk1 V c 2 t) (iblk1 V c 3 t) (iblk1 V c 5 t) (iblk1 V c 4 t) p q).trans ?_
  show Cert.Sage.lsm (fun q' : Fin 40 => Cert.Sage.lin (fun k : Fin 64 => iblk1 V c 0 t (ix2 p k)) (fun k : Fin 64 => iblk1 V c 1 t (ix2 p k)) (iblk1 V c 2 t (ix2 p (0 : Fin 1)))
        (fun k : Fin 64 => iblk1 V c 3 t (ix2 k q')) (fun k : Fin 64 => iblk1 V c 5 t (ix2 k q')) (iblk1 V c 4 t (ix2 (0 : Fin 1) q'))) (Ideal.ofBits .f32 0xFF800000#32) q = _
  have hA : (fun k : Fin 64 => iblk1 V c 0 t (ix2 p k)) = fun k : Fin 64 => (V c main_v34 : S100000x64.Idx → EReal) (ix2 (⟨5000 * t.val + p.val, hP⟩ : Fin 100000) k) :=
    funext fun k => blk1_0 V c t p k _ rfl
  have hX : (fun k : Fin 64 => iblk1 V c 1 t (ix2 p k)) = fun k : Fin 64 => (V c main_v24 : S100000x64.Idx → EReal) (ix2 (⟨5000 * t.val + p.val, hP⟩ : Fin 100000) k) :=
    funext fun k => blk1_1 V c t p k _ rfl
  have hr : iblk1 V c 2 t (ix2 p (0 : Fin 1)) = (V c main_v36 : S100000x1.Idx → EReal) (ix2 (⟨5000 * t.val + p.val, hP⟩ : Fin 100000) (0 : Fin 1)) :=
    blk1_2 V c t p 0 _ rfl
  have hWl : ∀ q' : Fin 40, (fun k : Fin 64 => iblk1 V c 3 t (ix2 k q')) = fun k : Fin 64 => (V c main_arg5 : S64x40.Idx → EReal) (ix2 k q') :=
    fun q' => funext fun k => blk1_3 V c t k q'
  have hWr : ∀ q' : Fin 40, (fun k : Fin 64 => iblk1 V c 5 t (ix2 k q')) = fun k : Fin 64 => (V c main_arg7 : S64x40.Idx → EReal) (ix2 k q') :=
    fun q' => funext fun k => blk1_5 V c t k q'
  have hb : ∀ q' : Fin 40, iblk1 V c 4 t (ix2 (0 : Fin 1) q') = (V c main_v35 : S1x40.Idx → EReal) (ix2 (0 : Fin 1) q') :=
    fun q' => blk1_4 V c t 0 q'
  rw [hA, hX, hr]
  simp only [hWl, hWr, hb]
  rfl

/-- An index of the result array is in point t's block iff each coordinate is in the block's range. -/
theorem mem_blk1 (t : Fin cfg1.N) (i : S100000x40.Idx) :
    i ∈ ((cfg1.win 6).blk t).view.set ↔ ∀ a : Fin 2, win1_6.index t a * S5000x40.size a ≤ (i a).val ∧ (i a).val < win1_6.index t a * S5000x40.size a + S5000x40.size a := by
  show i ∈ ((View.whole main_v37).slice (win1_6.rect t)).set ↔ _
  rw [View.set_slice_whole, Rect.mem_set_unit]
  exact Iff.rfl

/-- Row P lies in the block of point P / 5000: the 20 blocks cover the array. -/
theorem cover1 (i : S100000x40.Idx) : ∃ t : Fin cfg1.N, (cfg1.win 6).flush t = true ∧ i ∈ ((cfg1.win 6).blk t).view.set := by
  have hi0 : (i 0).val < 100000 := (i 0).isLt
  have hi1 : (i 1).val < 40 := (i 1).isLt
  have hN : cfg1.N = 20 := N_1
  have ht : (i 0).val / 5000 < cfg1.N := by omega
  have e6 := (idx1 ⟨(i 0).val / 5000, ht⟩).2.2.2.2.2.2
  refine ⟨⟨(i 0).val / 5000, ht⟩, flush1_6 _, ?_⟩
  rw [mem_blk1]
  intro a
  match a with
  | ⟨0, _⟩ =>
    show win1_6.index ⟨(i 0).val / 5000, ht⟩ (0 : Fin 2) * 5000 ≤ (i 0).val ∧ (i 0).val < win1_6.index ⟨(i 0).val / 5000, ht⟩ (0 : Fin 2) * 5000 + 5000
    rw [e6.1]; show (i 0).val / 5000 * 5000 ≤ (i 0).val ∧ (i 0).val < (i 0).val / 5000 * 5000 + 5000; omega
  | ⟨1, _⟩ =>
    show win1_6.index ⟨(i 0).val / 5000, ht⟩ (1 : Fin 2) * 40 ≤ (i 1).val ∧ (i 1).val < win1_6.index ⟨(i 0).val / 5000, ht⟩ (1 : Fin 2) * 40 + 40
    rw [e6.2]; omega

/-- THE ARRAY after the grid: `layer2` of the arrays found at entry. -/
theorem final1 (c : Dev nD) :
    (dat1 V c).arrAt 6 cfg1.N = layer2 (V c main_v34) (V c main_v24) (V c main_v36) (V c main_arg5) (V c main_v35) (V c main_arg7) :=
  (dat1 V c).arrAt_eq_of_cover 6 _ (fun t _ => flushed1 V c t) (cover1)

end Cert.KernelIdeal.Whole

end
-- ==== Proof.Bridge1.lean ====
/-
  The first layer, both ways.  The kernel's whole-array form scales each summed-neighbour entry by a column r
  with r(P) = 1 / max(deg P, 1); the reference divides the same entry by max(deg P, 1).  Read at an index
  (P, q) both are the maximum with zero of
      Σ_k (agg(P,k) ⊘ max(deg P, 1)) · Wl(k,q)  +  b(q)  +  Σ_k x(P,k) · Wr(k,q),
  because scaling by the reciprocal of a number that is at least 1 is dividing by it, on every extended real.
  The reference's stages are read one operation at a time by their index lemmas.  The summed-neighbour array
  and the degree are scatter-adds over 1250000 edges: they are kept as names throughout and never opened.
-/
import proofs.«120910_j59373627900056_2_alg».proof.Proof.RefRead
import proofs.«120910_j59373627900056_2_alg».proof.Proof.Blocks0
import proofs.«120910_j59373627900056_2_alg».proof.Proof.Sage

noncomputable section

namespace Cert.Sage.Bridge

open Idealize.ShloMosaic Idealize.ShloMosaic.ValueIdx
open Cert.ReferenceIdeal Cert.ReferenceIdeal.ReadP

/-- The word of the float 1.0 is the number one. -/
theorem one_f32 : Ideal.ofBits .f32 0x3F800000#32 = 1 := by
  simp [Ideal.ofBits, Ideal.ieee]
  first
    | (norm_cast; norm_num)
    | (rw [← EReal.coe_mul]; norm_num)
    | (exact_mod_cast (by norm_num : (8388608 : ℝ) * ((2 : ℝ) ^ 23)⁻¹ = 1))

variable (x0 : (⟨S100000x64, .f32⟩ : BufTy).Contents (Elt Ideal)) (x1 : (⟨S2x1250000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal))

/-- The clamped degree at node P: the larger of the degree and one. -/
theorem clamp_apply (P : Fin 100000) :
    val_main_v19 (F := Ideal) x1 (ix1 P) = max (val_main_v17 (F := Ideal) x1 (ix1 P)) (Ideal.ofBits .f32 0x3F800000#32) := by
  rw [val_main_v19_apply, val_main_v18_apply, val_main_cst_3_apply]
  generalize val_main_v17 (F := Ideal) x1 (ix1 P) = e
  rfl

/-- The reference's first layer at (P, q): the divided form. -/
theorem ref_layer1_apply (P : Fin 100000) (q : Fin 64) :
    val_main_v29 (F := Ideal) x0 x1 x2 x3 x4 (ix2 P q)
      = max (Cert.Sage.linDiv (fun k : Fin 64 => val_main_v13 (F := Ideal) x0 x1 (ix2 P k)) (fun k : Fin 64 => x0 (ix2 P k))
          (val_main_v19 (F := Ideal) x1 (ix1 P)) (fun k : Fin 64 => x2 (ix2 k q)) (fun k : Fin 64 => x4 (ix2 k q)) (x3 (ix1 q)))
          (Ideal.ofBits .f32 0x00000000#32) := by
  have e1 : ∀ k : Fin 64, lidx_main_v23 (ix2 P q) k = ix2 P k := fun k => funext fun a => Fin.ext (by
    match a with | ⟨0, _⟩ => rfl | ⟨1, _⟩ => rfl)
  have e2 : ∀ k : Fin 64, ridx_main_v23 (ix2 P q) k = ix2 k q := fun k => funext fun a => Fin.ext (by
    match a with | ⟨0, _⟩ => rfl | ⟨1, _⟩ => rfl)
  have e3 : ∀ k : Fin 64, lidx_main_v27 (ix2 P q) k = ix2 P k := fun k => funext fun a => Fin.ext (by
    match a with | ⟨0, _⟩ => rfl | ⟨1, _⟩ => rfl)
  have e4 : ∀ k : Fin 64, ridx_main_v27 (ix2 P q) k = ix2 k q := fun k => funext fun a => Fin.ext (by
    match a with | ⟨0, _⟩ => rfl | ⟨1, _⟩ => rfl)
  have e5 : ∀ k : Fin 64, idx_main_v20 (idx_main_v21 (ix2 P k)) = ix1 P := fun k => funext fun a => Fin.ext (by
    match a with | ⟨0, _⟩ => rfl)
  have e6 : idx_main_v24 (idx_main_v25 (ix2 P q)) = ix1 q := funext fun a => Fin.ext (by
    match a with | ⟨0, _⟩ => rfl)
  have hq : ∀ k : Fin 64, val_main_v22 (F := Ideal) x0 x1 (ix2 P k)
      = Ideal.div (val_main_v13 (F := Ideal) x0 x1 (ix2 P k)) (val_main_v19 (F := Ideal) x1 (ix1 P)) := by
    intro k
    rw [val_main_v22_apply, val_main_v21_apply, val_main_v20_apply, e5, Ideal.hostDivf_def]
  rw [val_main_v29_apply, val_main_v28_apply, val_main_v26_apply, val_main_v23_apply, val_main_v27_apply,
    val_main_v25_apply, val_main_v24_apply, val_main_call0_v0_apply, val_main_call0_cst_apply]
  simp only [e1, e2, e3, e4, e6, hq]
  generalize val_main_v13 (F := Ideal) x0 x1 = A
  generalize val_main_v19 (F := Ideal) x1 (ix1 P) = d
  simp only [Ideal.maximumf_def, Ideal.addf_def, Ideal.ofBits_def]
  rfl

/-- THE FIRST LAYER: the kernel's whole-array form, given a column that reads the reciprocal of the clamped
    degree and a row that reads the bias, is the reference's stage. -/
theorem layer1_eq_ref (r : S100000x1.Idx → EReal) (b : S1x64.Idx → EReal)
    (hr : ∀ P : Fin 100000, r (ix2 P (0 : Fin 1))
      = Ideal.div (Ideal.ofBits .f32 0x3F800000#32) (val_main_v19 (F := Ideal) x1 (ix1 P)))
    (hb : ∀ q : Fin 64, b (ix2 (0 : Fin 1) q) = x3 (ix1 q)) :
    Cert.KernelIdeal.Whole.layer1 (val_main_v13 (F := Ideal) x0 x1) x0 r x2 b x4 = val_main_v29 (F := Ideal) x0 x1 x2 x3 x4 := by
  funext j
  obtain ⟨P, q, rfl⟩ : ∃ (P : Fin 100000) (q : Fin 64), j = ix2 P q := ⟨j 0, j 1, eq_ix2 j⟩
  unfold Cert.KernelIdeal.Whole.layer1
  rw [Cert.Sage.ofRows_ix2, ref_layer1_apply, hr P, hb q, clamp_apply, Cert.Sage.lin_recip _ _ _ _ one_f32]

end Cert.Sage.Bridge

end
-- ==== Proof.Bridge2.lean ====
/-
  The second layer with its log-softmax, both ways.  At row P the 40 pre-activation entries are the divided
  linear form over the second layer's summed neighbours and the hidden features; the reference's row maximum is
  a running maximum from minus infinity, once more bounded below by minus infinity (which changes nothing), its
  row sum starts from zero; so its result at (P, q) is the log-softmax of that row at q.  The kernel's
  whole-array form is the same log-softmax over the scaled linear form, and scaling by the reciprocal of the
  clamped degree is dividing by it.  The arrays computed by gathers and scatter-adds stay names throughout.
-/
import proofs.«120910_j59373627900056_2_alg».proof.Proof.RefRead
import proofs.«120910_j59373627900056_2_alg».proof.Proof.Blocks1
import proofs.«120910_j59373627900056_2_alg».proof.Proof.Bridge1
import proofs.«120910_j59373627900056_2_alg».proof.Proof.LibColumns
import proofs.«120910_j59373627900056_2_alg».proof.Proof.Sage

noncomputable section

namespace Cert.Sage.Bridge

open Idealize.ShloMosaic Idealize.ShloMosaic.ValueIdx
open Cert.ReferenceIdeal Cert.ReferenceIdeal.Gen Cert.ReferenceIdeal.ReadP

variable (x0 : (⟨S100000x64, .f32⟩ : BufTy).Contents (Elt Ideal)) (x1 : (⟨S2x1250000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64x40, .f32⟩ : BufTy).Contents (Elt Ideal))
  (x6 : (⟨S40, .f32⟩ : BufTy).Contents (Elt Ideal)) (x7 : (⟨S64x40, .f32⟩ : BufTy).Contents (Elt Ideal))

/-- The second layer's clamped degree at node P. -/
theorem clamp2_apply (P : Fin 100000) :
    val_main_v45 (F := Ideal) x1 (ix1 P) = max (val_main_v43 (F := Ideal) x1 (ix1 P)) (Ideal.ofBits .f32 0x3F800000#32) := by
  rw [val_main_v45_apply, val_main_v44_apply, val_main_cst_9_apply]
  generalize val_main_v43 (F := Ideal) x1 (ix1 P) = e
  rfl

/-- The reference's second-layer pre-activation at (P, q'): the divided form. -/
theorem ref_pre2_apply (P : Fin 100000) (q' : Fin 40) :
    val_main_v54 (F := Ideal) x0 x1 x2 x3 x4 x5 x6 x7 (ix2 P q')
      = Cert.Sage.linDiv (fun k : Fin 64 => val_main_v39 (F := Ideal) x0 x1 x2 x3 x4 (ix2 P k))
          (fun k : Fin 64 => val_main_v29 (F := Ideal) x0 x1 x2 x3 x4 (ix2 P k)) (val_main_v45 (F := Ideal) x1 (ix1 P))
          (fun k : Fin 64 => x5 (ix2 k q')) (fun k : Fin 64 => x7 (ix2 k q')) (x6 (ix1 q')) := by
  have e1 : ∀ k : Fin 64, lidx_main_v49 (ix2 P q') k = ix2 P k := fun k => funext fun a => Fin.ext (by
    match a with | ⟨0, _⟩ => rfl | ⟨1, _⟩ => rfl)
  have e2 : ∀ k : Fin 64, ridx_main_v49 (ix2 P q') k = ix2 k q' := fun k => funext fun a => Fin.ext (by
    match a with | ⟨0, _⟩ => rfl | ⟨1, _⟩ => rfl)
  have e3 : ∀ k : Fin 64, lidx_main_v53 (ix2 P q') k = ix2 P k := fun k => funext fun a => Fin.ext (by
    match a with | ⟨0, _⟩ => rfl | ⟨1, _⟩ => rfl)
  have e4 : ∀ k : Fin 64, ridx_main_v53 (ix2 P q') k = ix2 k q' := fun k => funext fun a => Fin.ext (by
    match a with | ⟨0, _⟩ => rfl | ⟨1, _⟩ => rfl)
  have e5 : ∀ k : Fin 64, idx_main_v46 (idx_main_v47 (ix2 P k)) = ix1 P := fun k => funext fun a => Fin.ext (by
    match a with | ⟨0, _⟩ => rfl)
  have e6 : idx_main_v50 (idx_main_v51 (ix2 P q')) = ix1 q' := funext fun a => Fin.ext (by
    match a with | ⟨0, _⟩ => rfl)
  have hq : ∀ k : Fin 64, val_main_v48 (F := Ideal) x0 x1 x2 x3 x4 (ix2 P k)
      = Ideal.div (val_main_v39 (F := Ideal) x0 x1 x2 x3 x4 (ix2 P k)) (val_main_v45 (F := Ideal) x1 (ix1 P)) := by
    intro k
    rw [val_main_v48_apply, val_main_v47_apply, val_main_v46_apply, e5, Ideal.hostDivf_def]
  rw [val_main_v54_apply, val_main_v52_apply, val_main_v49_apply, val_main_v53_apply, val_main_v51_apply, val_main_v50_apply]
  simp only [e1, e2, e3, e4, e6, hq]
  generalize val_main_v39 (F := Ideal) x0 x1 x2 x3 x4 = A
  generalize val_main_v29 (F := Ideal) x0 x1 x2 x3 x4 = H
  generalize val_main_v45 (F := Ideal) x1 (ix1 P) = d
  simp only [Ideal.addf_def]
  rfl

/-- A running maximum written with the float maximum is the running maximum. -/
theorem fold_maximumf_eq {ι : Type} (s : Finset ι) (b : EReal) (f : ι → EReal) :
    s.fold (FloatOps.maximumf (F := Ideal) (φ := .f32)) b f = s.fold max b f := rfl

/-- The reference's row maximum at P: the running maximum of row P of the pre-activations from minus infinity. -/
theorem ref_rowmax_apply (P : Fin 100000) :
    val_main_call1_v2 (F := Ideal) x0 x1 x2 x3 x4 x5 x6 x7 (ix1 P)
      = (Finset.univ : Finset (Fin 40)).fold max (Ideal.ofBits .f32 0xFF800000#32)
          (fun q' : Fin 40 => val_main_v54 (F := Ideal) x0 x1 x2 x3 x4 x5 x6 x7 (ix2 P q')) := by
  have hv0 : val_main_call1_v0 (F := Ideal) x0 x1 x2 x3 x4 x5 x6 x7 (ix1 P)
      = (Finset.univ : Finset (Fin 40)).fold max (Ideal.ofBits .f32 0xFF800000#32)
          (fun q' : Fin 40 => val_main_v54 (F := Ideal) x0 x1 x2 x3 x4 x5 x6 x7 (ix2 P q')) := by
    unfold val_main_call1_v0
    generalize val_main_v54 (F := Ideal) x0 x1 x2 x3 x4 x5 x6 x7 = Z
    have h : S100000x40.Reduces [1] S100000 := by decide
    refine (Host.reduce_eq_fold_single (FloatOps.maximumf (F := Ideal) (φ := .f32)) (Z : S100000x40.Idx → Ideal .f32)
      (val_main_call1_cst (F := Ideal)) reducesTo_S100000x40_S100000_d1 h h_S_ (ix1 P)).trans ?_
    rw [val_main_call1_cst_apply, Ideal.ofBits_def]
    refine (fold_maximumf_eq _ _ _).trans ?_
    refine congrArg ((Finset.univ : Finset (Fin 40)).fold max (Ideal.ofBits .f32 0xFF800000#32)) (funext fun k => ?_)
    rw [Function.comp_apply, Cert.Columns.lift_row h P k]
  rw [val_main_call1_v2_apply, val_main_call1_v1_apply, val_main_call1_cst_0_apply, hv0, Ideal.maximumf_def, Ideal.ofBits_def]
  exact Cert.Sage.max_fold_self _ _

/-- The reference's shifted row at (P, q'): the pre-activation minus the row's maximum. -/
theorem ref_shift_apply (P : Fin 100000) (q' : Fin 40) :
    val_main_call1_v5 (F := Ideal) x0 x1 x2 x3 x4 x5 x6 x7 (ix2 P q')
      = val_main_v54 (F := Ideal) x0 x1 x2 x3 x4 x5 x6 x7 (ix2 P q')
        - (Finset.univ : Finset (Fin 40)).fold max (Ideal.ofBits .f32 0xFF800000#32)
          (fun q'' : Fin 40 => val_main_v54 (F := Ideal) x0 x1 x2 x3 x4 x5 x6 x7 (ix2 P q'')) := by
  have e : idx_main_call1_v3 (idx_main_call1_v4 (ix2 P q')) = ix1 P := funext fun a => Fin.ext (by
    match a with | ⟨0, _⟩ => rfl)
  rw [val_main_call1_v5_apply, val_main_call1_v4_apply, val_main_call1_v3_apply, e, ref_rowmax_apply, Ideal.subf_def]

/-- The reference's result at (P, q): the log-softmax of row P of the pre-activations at q. -/
theorem ref_layer2_apply (P : Fin 100000) (q : Fin 40) :
    val_main_v55 (F := Ideal) x0 x1 x2 x3 x4 x5 x6 x7 (ix2 P q)
      = Cert.Sage.lsm (fun q' : Fin 40 => val_main_v54 (F := Ideal) x0 x1 x2 x3 x4 x5 x6 x7 (ix2 P q')) (Ideal.ofBits .f32 0xFF800000#32) q := by
  have e10 : idx_main_call1_v8 (idx_main_call1_v10 (ix2 P q)) = ix1 P := funext fun a => Fin.ext (by
    match a with | ⟨0, _⟩ => rfl)
  have e7 : ∀ k : Fin 40, idx_main_call1_v7 (ix1 P) k = ix2 P k := fun k => funext fun a => Fin.ext (by
    match a with | ⟨0, _⟩ => rfl | ⟨1, _⟩ => rfl)
  have hsum : (∑ k : Fin 40, val_main_call1_v6 (F := Ideal) x0 x1 x2 x3 x4 x5 x6 x7 (idx_main_call1_v7 (ix1 P) k))
      = ∑ k : Fin 40, Ideal.exp (val_main_v54 (F := Ideal) x0 x1 x2 x3 x4 x5 x6 x7 (ix2 P k)
          - (Finset.univ : Finset (Fin 40)).fold max (Ideal.ofBits .f32 0xFF800000#32)
          (fun q'' : Fin 40 => val_main_v54 (F := Ideal) x0 x1 x2 x3 x4 x5 x6 x7 (ix2 P q''))) := by
    refine Finset.sum_congr rfl fun k _ => ?_
    rw [e7 k, val_main_call1_v6_apply, ref_shift_apply, Ideal.hostUnary_exp_def]
  rw [val_main_v55_apply, val_main_call1_v10_apply, val_main_call1_v9_apply, val_main_call1_v8_apply, e10,
    val_main_call1_v7_apply, val_main_call1_cst_1_apply, hsum, ref_shift_apply, Ideal.subf_def, Ideal.hostUnary_log_def,
    Ideal.ofBits_def, Ideal.ofBits_zero_f32, zero_add]
  rfl

/-- THE SECOND LAYER: the kernel's whole-array form over the reference's summed neighbours and hidden features,
    given a column that reads the reciprocal of the clamped degree and a row that reads the bias, is the
    reference's result. -/
theorem layer2_eq_ref (r : S100000x1.Idx → EReal) (b : S1x40.Idx → EReal)
    (hr : ∀ P : Fin 100000, r (ix2 P (0 : Fin 1))
      = Ideal.div (Ideal.ofBits .f32 0x3F800000#32) (val_main_v45 (F := Ideal) x1 (ix1 P)))
    (hb : ∀ q : Fin 40, b (ix2 (0 : Fin 1) q) = x6 (ix1 q)) :
    Cert.KernelIdeal.Whole.layer2 (val_main_v39 (F := Ideal) x0 x1 x2 x3 x4) (val_main_v29 (F := Ideal) x0 x1 x2 x3 x4) r x5 b x7
      = val_main_v55 (F := Ideal) x0 x1 x2 x3 x4 x5 x6 x7 := by
  funext j
  obtain ⟨P, q, rfl⟩ : ∃ (P : Fin 100000) (q : Fin 40), j = ix2 P q := ⟨j 0, j 1, eq_ix2 j⟩
  unfold Cert.KernelIdeal.Whole.layer2
  rw [Cert.Sage.ofRows_ix2, ref_layer2_apply]
  refine congrArg (fun z : Fin 40 → EReal => Cert.Sage.lsm z (Ideal.ofBits .f32 0xFF800000#32) q) (funext fun q' => ?_)
  rw [ref_pre2_apply, hr P, hb q', clamp2_apply, Cert.Sage.lin_recip _ _ _ _ one_f32]

end Cert.Sage.Bridge

end
-- ==== Proof.KernelValue.lean ====
/-
  The idealized kernel's result, named.  Its buffers' contents at the four boundaries of @main are a fold from
  the launch memory.  Read at the buffers the two grids use, that fold is:
    before the first grid   the summed neighbours of the features (a scatter-add of a gather), the features,
                            the column of reciprocals 1 / max(deg, 1), the first layer's weights and bias row;
    after the first grid    its result array, which is the first layer's whole-array function of those;
    before the second grid  the summed neighbours of that result, the result itself, the same column, the
                            second layer's weights and bias row;
    after the second grid   the second layer's whole-array function of those.
  Each host-computed array is the same term the reference computes, so it is named by the reference's stage
  function; the two layers are then the reference's by the two layer lemmas.  Hence the result buffer ends
  holding the reference's last stage function of the kernel's own arguments.
-/
import proofs.«120910_j59373627900056_2_alg».proof.Proof.KernelRun
import proofs.«120910_j59373627900056_2_alg».proof.Proof.Blocks0
import proofs.«120910_j59373627900056_2_alg».proof.Proof.Blocks1
import proofs.«120910_j59373627900056_2_alg».proof.Proof.Bridge1
import proofs.«120910_j59373627900056_2_alg».proof.Proof.Bridge2
import proofs.«120910_j59373627900056_2_alg».proof.Proof.LibColumns
import Idealize.ShloMosaic.Lib.StableHlo.Run
import Idealize.ShloMosaic.Lib.ValueLayout

set_option maxRecDepth 16384

noncomputable section

namespace Cert.KernelIdeal.Whole

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

-- a gather and a scatter-add over 1250000 edges are compared by their arguments, never opened
attribute [local irreducible] Host.scatterAdd Host.gather

variable (m : (ℓ : Loc nD τ sig) → Buf (Elt Ideal) ℓ) (ρ : Dev nD → PrngReg)

/-! ## A column of reciprocals and a bias row, read at an index -/

/-- The column `1 / D` of a vector `D` of 100000 entries, read at row P. -/
theorem recip_col_apply (D : FVec Ideal S100000 .f32) (P : Fin 100000) :
    shapeCast S100000x1 (Host.divf (F := Ideal) (broadcastInDim S100000 ![] bcast_S_S100000 (constant (F := Ideal) S_ .f32 0x3F800000#32)) D)
        shapeCasts_S100000_S100000x1 (ix2 P (0 : Fin 1))
      = Ideal.div (Ideal.ofBits .f32 0x3F800000#32) (D (ix1 P)) := by
  rw [Cert.Columns.shapeCast_a_a1_apply]
  show Ideal.div (broadcastInDim S100000 ![] bcast_S_S100000 (constant (F := Ideal) S_ .f32 0x3F800000#32) (ix1 P)) (D (ix1 P)) = _
  rw [broadcastInDim_apply _ bcast_S_S100000 (constant (F := Ideal) S_ .f32 0x3F800000#32) (ix1 P) (fun a => a.elim0) (fun a => a.elim0)]
  rfl

/-! ## Before the first grid -/

theorem W1_v21 (c : Dev nD) : W1 m ρ c (Proc.devRef .tc main_v21) = Cert.ReferenceIdeal.ReadP.val_main_v13 (F := Ideal) (m ((c : Thread nD τ).loc main_arg0)) (m ((c : Thread nD τ).loc main_arg1)) := by
  show StableHlo.after hostOps0 (W0 m ρ c) (Proc.devRef .tc main_v21) = _
  after_results_simp
  rfl

theorem W1_v11 (c : Dev nD) : W1 m ρ c (Proc.devRef .tc main_v11)
    = Host.divf (F := Ideal) (broadcastInDim S100000 ![] bcast_S_S100000 (constant (F := Ideal) S_ .f32 0x3F800000#32))
        (Cert.ReferenceIdeal.ReadP.val_main_v19 (F := Ideal) (m ((c : Thread nD τ).loc main_arg1))) := by
  show StableHlo.after hostOps0 (W0 m ρ c) (Proc.devRef .tc main_v11) = _
  after_results_simp
  rfl

theorem W1_v23 (c : Dev nD) : W1 m ρ c (Proc.devRef .tc main_v23)
    = shapeCast S100000x1 (Host.divf (F := Ideal) (broadcastInDim S100000 ![] bcast_S_S100000 (constant (F := Ideal) S_ .f32 0x3F800000#32))
        (Cert.ReferenceIdeal.ReadP.val_main_v19 (F := Ideal) (m ((c : Thread nD τ).loc main_arg1)))) shapeCasts_S100000_S100000x1 := by
  show StableHlo.after hostOps0 (W0 m ρ c) (Proc.devRef .tc main_v23) = _
  after_results_simp
  rfl

theorem W1_v22 (c : Dev nD) : W1 m ρ c (Proc.devRef .tc main_v22) = shapeCast S1x64 (m ((c : Thread nD τ).loc main_arg3)) shapeCasts_S64_S1x64 := by
  show StableHlo.after hostOps0 (W0 m ρ c) (Proc.devRef .tc main_v22) = _
  after_results_simp
  rfl

theorem W1_v1 (c : Dev nD) : W1 m ρ c (Proc.devRef .tc main_v1) = Cert.ReferenceIdeal.ReadP.val_main_v1 (F := Ideal) (m ((c : Thread nD τ).loc main_arg1)) := by
  show StableHlo.after hostOps0 (W0 m ρ c) (Proc.devRef .tc main_v1) = _
  after_results_simp
  rfl

theorem W1_v3 (c : Dev nD) : W1 m ρ c (Proc.devRef .tc main_v3) = Cert.ReferenceIdeal.ReadP.val_main_v3 (F := Ideal) (m ((c : Thread nD τ).loc main_arg1)) := by
  show StableHlo.after hostOps0 (W0 m ρ c) (Proc.devRef .tc main_v3) = _
  after_results_simp
  rfl

theorem W1_main_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_main_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_main_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_main_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_main_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_main_arg7 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## After the first grid -/

theorem W2_main_v1 (c : Dev nD) : W2 m ρ c (Proc.devRef .tc main_v1) = W1 m ρ c (Proc.devRef .tc main_v1) := W2_of_ne m ρ c main_v1 (by decide)
theorem W2_main_v3 (c : Dev nD) : W2 m ρ c (Proc.devRef .tc main_v3) = W1 m ρ c (Proc.devRef .tc main_v3) := W2_of_ne m ρ c main_v3 (by decide)
theorem W2_main_v11 (c : Dev nD) : W2 m ρ c (Proc.devRef .tc main_v11) = W1 m ρ c (Proc.devRef .tc main_v11) := W2_of_ne m ρ c main_v11 (by decide)
theorem W2_main_arg5 (c : Dev nD) : W2 m ρ c (Proc.devRef .tc main_arg5) = W1 m ρ c (Proc.devRef .tc main_arg5) := W2_of_ne m ρ c main_arg5 (by decide)
theorem W2_main_arg6 (c : Dev nD) : W2 m ρ c (Proc.devRef .tc main_arg6) = W1 m ρ c (Proc.devRef .tc main_arg6) := W2_of_ne m ρ c main_arg6 (by decide)
theorem W2_main_arg7 (c : Dev nD) : W2 m ρ c (Proc.devRef .tc main_arg7) = W1 m ρ c (Proc.devRef .tc main_arg7) := W2_of_ne m ρ c main_arg7 (by decide)

/-- The first grid's result array is the reference's hidden features. -/
theorem W2_v24 (c : Dev nD) : W2 m ρ c (Proc.devRef .tc main_v24) = Cert.ReferenceIdeal.ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ?_
  rw [final0 (V1 m ρ) c]
  show layer1 (W1 m ρ c (Proc.devRef .tc main_v21)) (W1 m ρ c (Proc.devRef .tc main_arg0)) (W1 m ρ c (Proc.devRef .tc main_v23))
      (W1 m ρ c (Proc.devRef .tc main_arg2)) (W1 m ρ c (Proc.devRef .tc main_v22)) (W1 m ρ c (Proc.devRef .tc main_arg4)) = _
  rw [W1_v21, W1_main_arg0, W1_main_arg2, W1_main_arg4, W1_v23, W1_v22]
  refine Cert.Sage.Bridge.layer1_eq_ref _ _ _ _ _ _ _ (fun P => ?_) (fun q => ?_)
  · exact recip_col_apply _ P
  · exact shapeCast_a_1a_apply _ _ (0 : Fin 1) q

/-! ## Before the second grid -/

theorem W3_v34 (c : Dev nD) : W3 m ρ c (Proc.devRef .tc main_v34) = Cert.ReferenceIdeal.ReadP.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v34) = _
  after_results_simp
  rw [W2_v24, W2_main_v1, W2_main_v3, W1_v1, W1_v3]
  rfl

theorem W3_v24 (c : Dev nD) : W3 m ρ c (Proc.devRef .tc main_v24) = Cert.ReferenceIdeal.ReadP.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v24) = _
  after_results_simp
  exact W2_v24 m ρ c

theorem W3_v36 (c : Dev nD) : W3 m ρ c (Proc.devRef .tc main_v36)
    = shapeCast S100000x1 (Host.divf (F := Ideal) (broadcastInDim S100000 ![] bcast_S_S100000 (constant (F := Ideal) S_ .f32 0x3F800000#32))
        (Cert.ReferenceIdeal.ReadP.val_main_v45 (F := Ideal) (m ((c : Thread nD τ).loc main_arg1)))) shapeCasts_S100000_S100000x1 := by
  show StableHlo.after hostOps1 (W2 m ρ c) (Proc.devRef .tc main_v36) = _
  after_results_simp
  rw [W2_main_v11, W1_v11]
  rfl

theorem W3_v35 (c : Dev nD) : W3 m ρ c (Proc.devRef .tc main_v35) = shapeCast S1x40 (m ((c : Thread nD τ).loc main_arg6)) shapeCasts_S40_S1x40 := by
  show StableHlo.after hostOps1 (W2 m ρ c) (Proc.devRef .tc main_v35) = _
  after_results_simp
  rw [W2_main_arg6, W1_main_arg6]
  rfl

theorem W3_arg5 (c : Dev nD) : W3 m ρ c (Proc.devRef .tc main_arg5) = (m ((c : Thread nD τ).loc main_arg5)) := by
  show StableHlo.after hostOps1 (W2 m ρ c) (Proc.devRef .tc main_arg5) = _
  after_results_simp
  rw [W2_main_arg5, W1_main_arg5]

theorem W3_arg7 (c : Dev nD) : W3 m ρ c (Proc.devRef .tc main_arg7) = (m ((c : Thread nD τ).loc main_arg7)) := by
  show StableHlo.after hostOps1 (W2 m ρ c) (Proc.devRef .tc main_arg7) = _
  after_results_simp
  rw [W2_main_arg7, W1_main_arg7]

/-! ## After the second grid -/

/-- THE RESULT BUFFER ends holding the reference's last stage function of the kernel's own arguments. -/
theorem result_value (c : Dev nD) : W4 m ρ c (Proc.devRef .tc main_v37) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ?_
  rw [final1 (V3 m ρ) c]
  show layer2 (W3 m ρ c (Proc.devRef .tc main_v34)) (W3 m ρ c (Proc.devRef .tc main_v24)) (W3 m ρ c (Proc.devRef .tc main_v36))
      (W3 m ρ c (Proc.devRef .tc main_arg5)) (W3 m ρ c (Proc.devRef .tc main_v35)) (W3 m ρ c (Proc.devRef .tc main_arg7)) = _
  rw [W3_v34, W3_v24, W3_v36, W3_arg5, W3_v35, W3_arg7]
  refine Cert.Sage.Bridge.layer2_eq_ref _ _ _ _ _ _ _ _ _ _ (fun P => ?_) (fun q => ?_)
  · exact recip_col_apply _ P
  · exact shapeCast_a_1a_apply _ _ (0 : Fin 1) q

/-- THE RUN, read: every weakly fair execution terminates without a fault, the result buffer at the reference's
    last stage function of the arguments, the arguments unchanged. -/
theorem run : θ_run defs (onTc (τ := τ) (main (F := Ideal))) ⟨m, fun _ => 0, ρ⟩ (fun r => ∀ c : Dev nD,
      r.2.mem ((c.tc : Thread nD τ).loc main_v37) = Cert.ReferenceIdeal.ReadP.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Whole

end
-- ==== Proof.LibCalled.lean ====
/-
  Values moved to and from a called function's buffers.

  The operations of a function called from a host program move each operand from its buffer's own type to the
  value's type, and each result back, along the equation between the two types.  Moving a value to a buffer's
  type and straight back is the identity, whatever the buffer and whatever the equation: with the equation
  eliminated both moves are the identity.  Stated for an arbitrary typed reference, so that no particular
  (possibly very large) array type is ever compared.
-/
import Idealize.ShloMosaic.Lib.StableHlo

namespace Cert.Called

open Idealize.ShloMosaic Idealize.ShloMosaic.StableHlo

variable {sig : RefSig} {Val : EltTy → Type}

/-- A value moved to a typed reference's buffer type and back is the value. -/
theorem ofBuf_toBuf {T : BufTy} (x : TRef sig T) (v : T.Contents Val) : x.ofBuf (x.toBuf v) = v := by
  obtain ⟨r, h1, h2, h3⟩ := x
  subst h1
  rfl

/-- Contents of a typed reference's buffer moved to the value's type and back are the contents. -/
theorem toBuf_ofBuf {T : BufTy} (x : TRef sig T) (v : x.ref.ty.Contents Val) : x.toBuf (x.ofBuf v) = v := by
  obtain ⟨r, h1, h2, h3⟩ := x
  subst h1
  rfl

end Cert.Called
-- ==== Proof.RefValue.lean ====
/-
  The reference program's run, with its result named by the stage functions that read it at an index.

  @main is a straight line of 84 host operations, so every buffer ends at the fold of the operations' results
  over the launch contents.  Read back as ONE term that fold is too large to compare in one step; it is read
  here in three stretches, each for an arbitrary starting valuation:
    A  the first layer up to its sum before the maximum with zero      (operations 0 … 34),
    B  that maximum, then the second layer's gather, scatter-add and clamped degree  (35 … 61),
    C  the second layer's quotient, products, bias and the log-softmax   (62 … 83).
  A fold over a concatenation is the fold over the second list started from the fold over the first.
-/
import proofs.«120910_j59373627900056_2_alg».proof.Proof.RefRun
import proofs.«120910_j59373627900056_2_alg».proof.Proof.RefRead
import proofs.«120910_j59373627900056_2_alg».proof.Proof.LibCalled

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

-- a gather and a scatter-add over 1250000 edges are compared by their arguments, never opened
attribute [local irreducible] Host.scatterAdd Host.gather

theorem after_append (l1 l2 : List (HloOp τ sig (Elt Ideal))) (V : Valuation τ sig (Elt Ideal)) :
    after (l1 ++ l2) V = after l2 (after l1 V) := by
  induction l1 generalizing V with
  | nil => rfl
  | cons op l ih => exact ih (op.result V)

abbrev opsA : List (HloOp τ sig (Elt Ideal)) := (ops (F := Ideal)).take 35
abbrev opsB : List (HloOp τ sig (Elt Ideal)) := ((ops (F := Ideal)).drop 35).take 27
abbrev opsC : List (HloOp τ sig (Elt Ideal)) := ((ops (F := Ideal)).drop 35).drop 27

theorem after_split (V : Valuation τ sig (Elt Ideal)) :
    after (ops (F := Ideal)) V = after opsC (after opsB (after opsA V)) := by
  have h1 : (ops (F := Ideal)) = opsA ++ (ops (F := Ideal)).drop 35 := (List.take_append_drop 35 _).symm
  have h2 : (ops (F := Ideal)).drop 35 = opsB ++ opsC := (List.take_append_drop 27 _).symm
  rw [← after_append, ← after_append, ← h2, ← h1]

variable (x0 : (⟨S100000x64, .f32⟩ : BufTy).Contents (Elt Ideal)) (x1 : (⟨S2x1250000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64x40, .f32⟩ : BufTy).Contents (Elt Ideal))
  (x6 : (⟨S40, .f32⟩ : BufTy).Contents (Elt Ideal)) (x7 : (⟨S64x40, .f32⟩ : BufTy).Contents (Elt Ideal))

/-! ## Values moved to and from a called function's buffers

A called function's operations move each operand from its buffer's own type to the value's type and each result
back.  Both types are the same type, so these moves are the identity. -/

/-- The first layer's sum enters the maximum with zero as it is. -/
theorem ofBuf_v28 (A : (⟨S100000x64, .f32⟩ : BufTy).Contents (Elt Ideal)) :
    (TRef.of (T := ⟨S100000x64, .f32⟩) main_v28).ofBuf (Val := Elt Ideal) A = A := rfl

/-- The maximum with zero leaves as it is. -/
theorem toBuf_v29 (A : (⟨S100000x64, .f32⟩ : BufTy).Contents (Elt Ideal)) :
    (TRef.of (T := ⟨S100000x64, .f32⟩) main_v29).toBuf (Val := Elt Ideal) A = A := rfl

/-- The second layer's pre-activations enter the log-softmax as they are. -/
theorem ofBuf_v54 (Z : (⟨S100000x40, .f32⟩ : BufTy).Contents (Elt Ideal)) :
    (TRef.of (T := ⟨S100000x40, .f32⟩) main_v54).ofBuf (Val := Elt Ideal) Z = Z := rfl

/-- The log-softmax leaves as it is. -/
theorem toBuf_v55 (Z : (⟨S100000x40, .f32⟩ : BufTy).Contents (Elt Ideal)) :
    (TRef.of (T := ⟨S100000x40, .f32⟩) main_v55).toBuf (Val := Elt Ideal) Z = Z := rfl

/-- STRETCH A, from any contents whose arguments are `x0 … x4`: the first layer's sum and the two index rows. -/
theorem stageA (V : Valuation τ sig (Elt Ideal))
    (h0 : V (Proc.devRef .tc main_arg0) = x0) (h1 : V (Proc.devRef .tc main_arg1) = x1) (h2 : V (Proc.devRef .tc main_arg2) = x2)
    (h3 : V (Proc.devRef .tc main_arg3) = x3) (h4 : V (Proc.devRef .tc main_arg4) = x4) :
    after opsA V (Proc.devRef .tc main_v28) = val_main_v28 (F := Ideal) x0 x1 x2 x3 x4
    ∧ after opsA V (Proc.devRef .tc main_v1) = val_main_v1 (F := Ideal) x1
    ∧ after opsA V (Proc.devRef .tc main_v3) = val_main_v3 (F := Ideal) x1
    ∧ after opsA V (Proc.devRef .tc main_arg5) = V (Proc.devRef .tc main_arg5)
    ∧ after opsA V (Proc.devRef .tc main_arg6) = V (Proc.devRef .tc main_arg6)
    ∧ after opsA V (Proc.devRef .tc main_arg7) = V (Proc.devRef .tc main_arg7) := by
  subst h0 h1 h2 h3 h4
  simp only [opsA, ops, List.take_succ_cons, List.take_zero]
  refine ⟨?_, ?_, ?_, ?_, ?_, ?_⟩ <;> after_results_simp <;> rfl

/-- STRETCH B, from any contents holding the first layer's sum and the index rows. -/
theorem stageB (V : Valuation τ sig (Elt Ideal))
    (h28 : V (Proc.devRef .tc main_v28) = val_main_v28 (F := Ideal) x0 x1 x2 x3 x4)
    (h1 : V (Proc.devRef .tc main_v1) = val_main_v1 (F := Ideal) x1)
    (h3 : V (Proc.devRef .tc main_v3) = val_main_v3 (F := Ideal) x1) :
    after opsB V (Proc.devRef .tc main_v39) = val_main_v39 (F := Ideal) x0 x1 x2 x3 x4
    ∧ after opsB V (Proc.devRef .tc main_v47) = val_main_v47 (F := Ideal) x1
    ∧ after opsB V (Proc.devRef .tc main_v29) = val_main_v29 (F := Ideal) x0 x1 x2 x3 x4
    ∧ after opsB V (Proc.devRef .tc main_arg5) = V (Proc.devRef .tc main_arg5)
    ∧ after opsB V (Proc.devRef .tc main_arg6) = V (Proc.devRef .tc main_arg6)
    ∧ after opsB V (Proc.devRef .tc main_arg7) = V (Proc.devRef .tc main_arg7) := by
  simp only [opsB, ops, List.drop_succ_cons, List.drop_zero, List.take_succ_cons, List.take_zero]
  refine ⟨?_, ?_, ?_, ?_, ?_, ?_⟩
  · after_results_simp
    rw [h28, h1, h3]
    repeat rw [Cert.Called.ofBuf_toBuf]
    rw [ofBuf_v28, toBuf_v29]
    simp only [val_main_call0_cst, val_main_call0_v0, val_main_v29, val_main_c_4, val_main_v30, val_main_v31, val_main_c_5, val_main_v32, val_main_v33, val_main_v34, val_main_v35, val_main_v36, val_main_cst_6, val_main_v37, val_main_v38, val_main_v39, val_main_cst_7, val_main_v40, val_main_cst_8, val_main_v41, val_main_v42, val_main_v43, val_main_cst_9, val_main_v44, val_main_v45, val_main_v46, val_main_v47]
  · after_results_simp
    rw [h3]
    simp only [val_main_call0_cst, val_main_call0_v0, val_main_v29, val_main_c_4, val_main_v30, val_main_v31, val_main_c_5, val_main_v32, val_main_v33, val_main_v34, val_main_v35, val_main_v36, val_main_cst_6, val_main_v37, val_main_v38, val_main_v39, val_main_cst_7, val_main_v40, val_main_cst_8, val_main_v41, val_main_v42, val_main_v43, val_main_cst_9, val_main_v44, val_main_v45, val_main_v46, val_main_v47]
  · after_results_simp
    rw [h28]
    repeat rw [Cert.Called.ofBuf_toBuf]
    rw [ofBuf_v28, toBuf_v29]
    simp only [val_main_call0_cst, val_main_call0_v0, val_main_v29, val_main_c_4, val_main_v30, val_main_v31, val_main_c_5, val_main_v32, val_main_v33, val_main_v34, val_main_v35, val_main_v36, val_main_cst_6, val_main_v37, val_main_v38, val_main_v39, val_main_cst_7, val_main_v40, val_main_cst_8, val_main_v41, val_main_v42, val_main_v43, val_main_cst_9, val_main_v44, val_main_v45, val_main_v46, val_main_v47]
  · after_results_simp <;> rfl
  · after_results_simp <;> rfl
  · after_results_simp <;> rfl

/-- STRETCH C, from any contents holding the second layer's summed neighbours, clamped degrees and hidden features. -/
theorem stageC (V : Valuation τ sig (Elt Ideal))
    (h39 : V (Proc.devRef .tc main_v39) = val_main_v39 (F := Ideal) x0 x1 x2 x3 x4)
    (h47 : V (Proc.devRef .tc main_v47) = val_main_v47 (F := Ideal) x1)
    (h29 : V (Proc.devRef .tc main_v29) = val_main_v29 (F := Ideal) x0 x1 x2 x3 x4)
    (h5 : V (Proc.devRef .tc main_arg5) = x5) (h6 : V (Proc.devRef .tc main_arg6) = x6) (h7 : V (Proc.devRef .tc main_arg7) = x7) :
    after opsC V (Proc.devRef .tc main_v55) = val_main_v55 (F := Ideal) x0 x1 x2 x3 x4 x5 x6 x7 := by
  subst h5 h6 h7
  simp only [opsC, ops, List.drop_succ_cons, List.drop_zero]
  after_results_simp
  rw [h39, h47, h29]
  repeat rw [Cert.Called.ofBuf_toBuf]
  rw [ofBuf_v54, toBuf_v55]
  simp only [val_main_v48, val_main_v49, val_main_v50, val_main_v51, val_main_v52, val_main_v53, val_main_v54, val_main_call1_cst, val_main_call1_v0, val_main_call1_cst_0, val_main_call1_v1, val_main_call1_v2, val_main_call1_v3, val_main_call1_v4, val_main_call1_v5, val_main_call1_v6, val_main_call1_cst_1, val_main_call1_v7, val_main_call1_v8, val_main_call1_v9, val_main_call1_v10, val_main_v55]

/-- The whole fold at the result buffer is the last stage function of the launch contents of the arguments. -/
theorem result_eq (m : (ℓ : Loc nD τ sig) → Buf (Elt Ideal) ℓ) (c : Dev nD) :
    after (ops (F := Ideal)) (launchContents m c) (Proc.devRef .tc main_v55)
      = val_main_v55 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  rw [after_split]
  obtain ⟨a28, a1, a3, a5, a6, a7⟩ := stageA _ _ _ _ _ (launchContents m c) rfl rfl rfl rfl rfl
  obtain ⟨b39, b47, b29, b5, b6, b7⟩ := stageB _ _ _ _ _ (after opsA (launchContents m c)) a28 a1 a3
  exact stageC _ _ _ _ _ _ _ _ (after opsB (after opsA (launchContents m c))) b39 b47 b29 (b5.trans a5) (b6.trans a6) (b7.trans a7)

set_option maxHeartbeats 33600000 in
/-- THE RUN: every weakly fair execution terminates without a fault, the result buffer at the last stage function of the
    arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
        = val_main_v55 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.lean ====
/-
  Two SAGE layers and a row-wise log-softmax on a graph of 100000 nodes and 1250000 edges: a kernel against its
  plain reference, compared on the extended reals.

  Both programs sum each node's neighbour features (a gather along the edges' sources, a scatter-add at their
  destinations) and count its incoming edges; both then form, per layer,
        (summed neighbours ⊘ max(degree, 1)) · W_l  +  b  +  (own features) · W_r ,
  take the maximum with zero after the first layer, and after the second the log-softmax of every row: the row
  minus its maximum, minus the logarithm of the sum of the exponentials of the row so shifted.
  They differ in two ways only.  The reference divides the summed neighbours by max(degree, 1); the kernel
  multiplies them by the column 1 / max(degree, 1), computed once.  And the kernel computes the dense part of
  each layer in 20 blocks of 5000 rows, narrowing the matrix unit's operands (the identity on exact values).
  Since max(degree, 1) is at least 1 it is never zero, and off zero y / d = y · d⁻¹ on every extended real, so
  y · (1 / d) = y / d with no finiteness assumed; a row's entry depends only on that row of the inputs, so the
  20 blocks together are the whole-array function.  The gathers and scatter-adds are the same terms in both
  programs and are never opened.

  The kernel's two grids are run by the generated frame; its result buffer is read through the fold of buffer
  contents at @main's four boundaries (KernelRun, Blocks0, Blocks1, KernelValue).  The reference's run is read in
  three stretches against its index lemmas (RefValue).  Both results are the reference's last stage function of
  the arguments (Bridge1, Bridge2), and the arguments agree.
-/
import proofs.«120910_j59373627900056_2_alg».proof.Defs
import proofs.«120910_j59373627900056_2_alg».proof.Proof.Gen.Kernel
import proofs.«120910_j59373627900056_2_alg».proof.Proof.Gen.Kernel.Frame
import proofs.«120910_j59373627900056_2_alg».proof.Proof.Gen.KernelIdeal
import proofs.«120910_j59373627900056_2_alg».proof.Proof.Gen.KernelIdeal.Frame
import proofs.«120910_j59373627900056_2_alg».proof.Proof.Gen.ReferenceIdeal
import proofs.«120910_j59373627900056_2_alg».proof.Proof.Gen.Pre_finite_inputs
import proofs.«120910_j59373627900056_2_alg».proof.Proof.KernelValue
import proofs.«120910_j59373627900056_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed terminates, faults nowhere and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the same result array: the reference's
    last stage function of the arguments. -/
theorem algebraic : Cert.algebraic_KernelIdeal_ReferenceIdeal := by
  intro m ρ m' ρ' _ hagree
  refine ⟨fun c => Cert.ReferenceIdeal.ReadP.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
